-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2x4096x2048 : Shape := ⟨3, ![2, 4096, 2048]⟩
abbrev S512x2048 : Shape := ⟨2, ![512, 2048]⟩
abbrev S16384x512 : Shape := ⟨2, ![16384, 512]⟩
abbrev S16384 : Shape := ⟨1, ![16384]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096x2048 : S_.BroadcastsInDim S2x4096x2048 (![] : Fin 0 → Fin S2x4096x2048.rank)
  reducesTo_S2x4096x2048_S_d0_1_2 : S2x4096x2048.ReducesTo [0, 1, 2] S_
  bcast_S_S512x2048 : S_.BroadcastsInDim S512x2048 (![] : Fin 0 → Fin S512x2048.rank)
  reducesTo_S512x2048_S_d0_1 : S512x2048.ReducesTo [0, 1] S_
  bcast_S_S16384x512 : S_.BroadcastsInDim S16384x512 (![] : Fin 0 → Fin S16384x512.rank)
  reducesTo_S16384x512_S_d0_1 : S16384x512.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  main_v23

def fn {F : FTy → Type} [FloatOps F] (main_arg0 : FVec F S2x4096x4096 .f32) (main_arg1 : FVec F S2x4096x2048 .f32) (main_arg2 : FVec F S512x2048 .f32) (main_arg3 : FVec F S16384x512 .f32) (main_arg4 : FVec F S16384 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x2048 .f32 := Host.absf main_arg1
  let main_cst_0 : FVec F S_ .f32 := constant S_ .f32 0x7F800000#32
  let main_v5 : FVec F S2x4096x2048 .f32 := broadcastInDim S2x4096x2048 ![] bcast_S_S2x4096x2048 main_cst_0
  let main_v6 : IVec S2x4096x2048 1 := cmpf .olt main_v4 main_v5
  let main_c_1 : IVec S_ 1 := constantI S_ 1 1#1
  let main_v7 : IVec S_ 1 := (fun x v => Host.reduce IntOp.andi x v reducesTo_S2x4096x2048_S_d0_1_2 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_v13 main_v16
-- ==== Kernel.lean ====
abbrev S2x4096x4096 : Shape := ⟨3, ![2, 4096, 4096]⟩
abbrev S2x4096x2048 : Shape := ⟨3, ![2, 4096, 2048]⟩
abbrev S512x2048 : Shape := ⟨2, ![512, 2048]⟩
abbrev S16384x512 : Shape := ⟨2, ![16384, 512]⟩
abbrev S16384 : Shape := ⟨1, ![16384]⟩
abbrev S8192x2048 : Shape := ⟨2, ![8192, 2048]⟩
abbrev S2048x512 : Shape := ⟨2, ![2048, 512]⟩
abbrev S8192x512 : Shape := ⟨2, ![8192, 512]⟩
abbrev S1024x2048 : Shape := ⟨2, ![1024, 2048]⟩
abbrev S1024x512 : Shape := ⟨2, ![1024, 512]⟩
abbrev S2x4096x512 : Shape := ⟨3, ![2, 4096, 512]⟩
abbrev S4096x4x512 : Shape := ⟨3, ![4096, 4, 512]⟩
abbrev S4x512x4096 : Shape := ⟨3, ![4, 512, 4096]⟩
abbrev S4096x4 : Shape := ⟨2, ![4096, 4]⟩
abbrev S4x4096 : Shape := ⟨2, ![4, 4096]⟩
abbrev S_ : Shape := ⟨0, ![]⟩
abbrev S2x4099x4096 : Shape := ⟨3, ![2, 4099, 4096]⟩
abbrev S1x4096x512 : Shape := ⟨3, ![1, 4096, 512]⟩
abbrev S1x4099x256 : Shape := ⟨3, ![1, 4099, 256]⟩
abbrev S4x512x256 : Shape := ⟨3, ![4, 512, 256]⟩
abbrev S4x256 : Shape := ⟨2, ![4, 256]⟩
abbrev S1x4096x256 : Shape := ⟨3, ![1, 4096, 256]⟩
abbrev S1x1024x512 : Shape := ⟨3, ![1, 1024, 512]⟩
abbrev S1x1027x256 : Shape := ⟨3, ![1, 1027, 256]⟩
abbrev S1027x256 : Shape := ⟨2, ![1027, 256]⟩
abbrev S1024x256 : Shape := ⟨2, ![1024, 256]⟩
abbrev S1x512x256 : Shape := ⟨3, ![1, 512, 256]⟩
abbrev S512x256 : Shape := ⟨2, ![512, 256]⟩
abbrev S1x256 : Shape := ⟨2, ![1, 256]⟩
abbrev S256 : Shape := ⟨1, ![256]⟩
abbrev S1x1024x256 : Shape := ⟨3, ![1, 1024, 256]⟩

abbrev nBuf : Space → Nat
  | .hbm => 19
  | .vmem => 15
  | .smem => 0
  | _ => 0

abbrev bufTy : (tb : Table) → Fin (tcTables nBuf tb) → BufTy
  | .hbm, ⟨0, _⟩ => ⟨S2x4096x4096, .f32⟩
  | .hbm, ⟨1, _⟩ => ⟨S2x4096x2048, .f32⟩
  | .hbm, ⟨2, _⟩ => ⟨S512x2048, .f32⟩
  | .hbm, ⟨3, _⟩ => ⟨S16384x512, .f32⟩
  | .hbm, ⟨4, _⟩ => ⟨S16384, .f32⟩
  | .hbm, ⟨5, _⟩ => ⟨S8192x2048, .f32⟩
  | .hbm, ⟨6, _⟩ => ⟨S2048x512, .f32⟩
  | .hbm, ⟨7, _⟩ => ⟨S2048x512, .bf16⟩
  | .hbm, ⟨8, _⟩ => ⟨S8192x512, .bf16⟩
  | .hbm, ⟨9, _⟩ => ⟨S2x4096x512, .bf16⟩
  | .hbm, ⟨10, _⟩ => ⟨S4096x4x512, .f32⟩
  | .hbm, ⟨11, _⟩ => ⟨S4x512x4096, .f32⟩
  | .hbm, ⟨12, _⟩ => ⟨S4x512x4096, .bf16⟩
  | .hbm, ⟨13, _⟩ => ⟨S4096x4, .f32⟩
  | .hbm, ⟨14, _⟩ => ⟨S4x4096, .f32⟩
  | .hbm, ⟨15, _⟩ => ⟨S_, .i32⟩
  | .hbm, ⟨16, _⟩ => ⟨S_, .f32⟩
  | .hbm, ⟨17, _⟩ => ⟨S2x4099x4096, .f32⟩
  | .hbm, ⟨18, _⟩ => ⟨S2x4096x4096, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x4099x256, .f32⟩
  | .local _ .vmem, ⟨8, _⟩ => ⟨S1x4099x256, .f32⟩
  | .local _ .vmem, ⟨9, _⟩ => ⟨S4x512x256, .bf16⟩
  | .local _ .vmem, ⟨10, _⟩ => ⟨S4x512x256, .bf16⟩
  | .local _ .vmem, ⟨11, _⟩ => ⟨S4x256, .f32⟩
  | .local _ .vmem, ⟨12, _⟩ => ⟨S4x256, .f32⟩
  | .local _ .vmem, ⟨13, _⟩ => ⟨S1x4096x256, .f32⟩
  | .local _ .vmem, ⟨14, _⟩ => ⟨S1x4096x256, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

@[reducible] def k1_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k1_mult1 (k1_t1 : Fin k1_t1_loop.trips) : BitVec 32 :=
  let c0_i32_2 : BitVec 32 := 0#32
  let c0_i32 : BitVec 32 := 0#32
  let c1_i32 : BitVec 32 := 1#32
  let arg7 : BitVec 32 := Scf.iv c0_i32 c1_i32 k1_t1
  let c1_i32_1 : BitVec 32 := 1#32
  let v1 : BitVec 32 := Scalar.muli arg7 c1_i32_1
  let v2 : BitVec 32 := Scalar.addi c0_i32_2 v1
  let c1024_i32 : BitVec 32 := 1024#32
  let v3 : BitVec 32 := Scalar.muli v2 c1024_i32
  v3
def k1_off1 (k1_t1 : Fin k1_t1_loop.trips) : Fin 3 → Nat :=
  let c0 : Index := 0#32
  let c0_i32_2 : BitVec 32 := 0#32
  let c0_i32 : BitVec 32 := 0#32
  let c1_i32 : BitVec 32 := 1#32
  let arg7 : BitVec 32 := Scf.iv c0_i32 c1_i32 k1_t1
  let c1_i32_1 : BitVec 32 := 1#32
  let v1 : BitVec 32 := Scalar.muli arg7 c1_i32_1
  let v2 : BitVec 32 := Scalar.addi c0_i32_2 v1
  let c1024_i32 : BitVec 32 := 1024#32
  let v3 : BitVec 32 := Scalar.muli v2 c1024_i32
  let v4 : BitVec 32 := v3
  let v5 : Index := Scalar.indexCast v4
  let c0_3 : Index := 0#32
  ![0, v5.toNat, 0]
def k1_off2 (k1_t1 : Fin k1_t1_loop.trips) : Fin 3 → Nat :=
  let c0_4 : Index := 0#32
  let c0_i32_2 : BitVec 32 := 0#32
  let c0_i32 : BitVec 32 := 0#32
  let c1_i32 : BitVec 32 := 1#32
  let arg7 : BitVec 32 := Scf.iv c0_i32 c1_i32 k1_t1
  let c1_i32_1 : BitVec 32 := 1#32
  let v1 : BitVec 32 := Scalar.muli arg7 c1_i32_1
  let v2 : BitVec 32 := Scalar.addi c0_i32_2 v1
  let c1024_i32 : BitVec 32 := 1024#32
  let v3 : BitVec 32 := Scalar.muli v2 c1024_i32
  let v4 : BitVec 32 := v3
  let v8 : Index := Scalar.indexCast v4
  let c0_5 : Index := 0#32
  ![0, v8.toNat, 0]
def k1_off3 (k1_t1 : Fin k1_t1_loop.trips) : Fin 3 → Nat :=
  let c0_27 : Index := 0#32
  let c0_i32_2 : BitVec 32 := 0#32
  let c0_i32 : BitVec 32 := 0#32
  let c1_i32 : BitVec 32 := 1#32
  let arg7 : BitVec 32 := Scf.iv c0_i32 c1_i32 k1_t1
  let c1_i32_1 : BitVec 32 := 1#32
  let v1 : BitVec 32 := Scalar.muli arg7 c1_i32_1
  let v2 : BitVec 32 := Scalar.addi c0_i32_2 v1
  let c1024_i32 : BitVec 32 := 1024#32
  let v3 : BitVec 32 := Scalar.muli v2 c1024_i32
  let v4 : BitVec 32 := v3
  let v58 : Index := Scalar.indexCast v4
  let c0_28 : Index := 0#32
  ![0, v58.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4099x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x4096x2048_S8192x2048 : S2x4096x2048.ShapeCasts S8192x2048
  transposes_S512x2048_S2048x512_1_0 : S512x2048.Transposes [1, 0] S2048x512
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S8192x512_S2x4096x512 : S8192x512.ShapeCasts S2x4096x512
  shapeCasts_S16384x512_S4096x4x512 : S16384x512.ShapeCasts S4096x4x512
  transposes_S4096x4x512_S4x512x4096_1_2_0 : S4096x4x512.Transposes [1, 2, 0] S4x512x4096
  shapeCasts_S16384_S4096x4 : S16384.ShapeCasts S4096x4
  transposes_S4096x4_S4x4096_1_0 : S4096x4.Transposes [1, 0] S4x4096
  pads_S2x4096x4096_S2x4099x4096_000_300_000 : S2x4096x4096.Pads (![0, 3, 0] : Fin 3 → Nat) ![0, 0, 0] ![0, 0, 0] S2x4099x4096
  h_S_ : 0 < S_.numel
  h_S1x1024x512 : 0 < S1x1024x512.numel
  shapeCasts_S1x1024x512_S1024x512 : S1x1024x512.ShapeCasts S1024x512
  h_S1x1027x256 : 0 < S1x1027x256.numel
  shapeCasts_S1x1027x256_S1027x256 : S1x1027x256.ShapeCasts S1027x256
  inb_S4x512x256_S1x512x256_0_0_0 : ∀ a, (![0, 0, 0] : Fin 3 → Nat) a + S1x512x256.size a ≤ S4x512x256.size a
  h_S1x512x256 : 0 < S1x512x256.numel
  shapeCasts_S1x512x256_S512x256 : S1x512x256.ShapeCasts S512x256
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S1024x256 : S1x256.Broadcasts S1024x256
  slices_S1027x256_o0_0_S1024x256 : S1027x256.Slices ![0, 0] S1024x256
  inb_S4x512x256_S1x512x256_1_0_0 : ∀ a, (![1, 0, 0] : Fin 3 → Nat) a + S1x512x256.size a ≤ S4x512x256.size a
  inb_S4x256_S1x256_1_0 : ∀ a, (![1, 0] : Fin 2 → Nat) a + S1x256.size a ≤ S4x256.size a
  slices_S1027x256_o1_0_S1024x256 : S1027x256.Slices ![1, 0] S1024x256
  inb_S4x512x256_S1x512x256_2_0_0 : ∀ a, (![2, 0, 0] : Fin 3 → Nat) a + S1x512x256.size a ≤ S4x512x256.size a
  inb_S4x256_S1x256_2_0 : ∀ a, (![2, 0] : Fin 2 → Nat) a + S1x256.size a ≤ S4x256.size a
  slices_S1027x256_o2_0_S1024x256 : S1027x256.Slices ![2, 0] S1024x256
  inb_S4x512x256_S1x512x256_3_0_0 : ∀ a, (![3, 0, 0] : Fin 3 → Nat) a + S1x512x256.size a ≤ S4x512x256.size a
  inb_S4x256_S1x256_3_0 : ∀ a, (![3, 0] : Fin 2 → Nat) a + S1x256.size a ≤ S4x256.size a
  slices_S1027x256_o3_0_S1024x256 : S1027x256.Slices ![3, 0] S1024x256
  h_S1x1024x256 : 0 < S1x1024x256.numel
  shapeCasts_S1x1024x256_S1024x256 : S1x1024x256.ShapeCasts S1024x256
  shapeCasts_S1024x256_S1x1024x256 : S1024x256.ShapeCasts S1x1024x256
  dot_S1024x2048_S2048x512_S1024x512_1_0_0_1_n_n_wf : DotDims.WF S1024x2048 S2048x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1x1024x512.size a ≤ S1x4096x512.size a
  k1_off2_inb : ∀ k1_t1 : Fin k1_t1_loop.trips, ∀ a, (k1_off2 k1_t1) a + S1x1027x256.size a ≤ S1x4099x256.size a
  k1_off3_inb : ∀ k1_t1 : Fin k1_t1_loop.trips, ∀ a, (k1_off3 k1_t1) a + S1x1024x256.size a ≤ S1x4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x512.size a ≤ S2x4096x512.size a
  hwx1_0 : ∀ i : grid1.Coords, EltTy.bits .bf16 = 32 ∨ (Rect.block (s := S2x4096x512) S1x4096x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4099x256.size a ≤ S2x4099x4096.size a
  hwx1_1 : ∀ i : grid1.Coords, EltTy.bits .f32 = 32 ∨ (Rect.block (s := S2x4099x4096) S1x4099x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x256.size a ≤ S4x512x4096.size a
  hwx1_2 : ∀ i : grid1.Coords, EltTy.bits .bf16 = 32 ∨ (Rect.block (s := S4x512x4096) S4x512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x256.size a ≤ S4x4096.size a
  hwx1_3 : ∀ i : grid1.Coords, EltTy.bits .f32 = 32 ∨ (Rect.block (s := S4x4096) S4x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4096x256.size a ≤ S2x4096x4096.size a
  hwx1_4 : ∀ i : grid1.Coords, EltTy.bits .f32 = 32 ∨ (Rect.block (s := S2x4096x4096) S1x4096x256.size (cc1_transform_4 i) (hinb1_4 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x4099x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S4x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S4x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x4096x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x4096x4096 : Shape := ⟨3, ![2, 4096, 4096]⟩
abbrev S2x4096x2048 : Shape := ⟨3, ![2, 4096, 2048]⟩
abbrev S512x2048 : Shape := ⟨2, ![512, 2048]⟩
abbrev S16384x512 : Shape := ⟨2, ![16384, 512]⟩
abbrev S16384 : Shape := ⟨1, ![16384]⟩
abbrev S2x4096x512 : Shape := ⟨3, ![2, 4096, 512]⟩
abbrev S_ : Shape := ⟨0, ![]⟩
abbrev S2x4096x16384 : Shape := ⟨3, ![2, 4096, 16384]⟩
abbrev S1x1x16384 : Shape := ⟨3, ![1, 1, 16384]⟩
abbrev S2x4096x4096x4 : Shape := ⟨4, ![2, 4096, 4096, 4]⟩
abbrev S2x4099x4096 : Shape := ⟨3, ![2, 4099, 4096]⟩
abbrev S2x4096x4096x1 : Shape := ⟨4, ![2, 4096, 4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x2048, .f32⟩
  | .hbm, ⟨2, _⟩ => ⟨S512x2048, .f32⟩
  | .hbm, ⟨3, _⟩ => ⟨S16384x512, .f32⟩
  | .hbm, ⟨4, _⟩ => ⟨S16384, .f32⟩
  | .hbm, ⟨5, _⟩ => ⟨S2x4096x512, .f32⟩
  | .hbm, ⟨6, _⟩ => ⟨S2x4096x512, .f32⟩
  | .hbm, ⟨7, _⟩ => ⟨S2x4096x512, .f32⟩
  | .hbm, ⟨8, _⟩ => ⟨S_, .f32⟩
  | .hbm, ⟨9, _⟩ => ⟨S2x4096x512, .f32⟩
  | .hbm, ⟨10, _⟩ => ⟨S2x4096x512, .f32⟩
  | .hbm, ⟨11, _⟩ => ⟨S_, .f32⟩
  | .hbm, ⟨12, _⟩ => ⟨S2x4096x512, .f32⟩
  | .hbm, ⟨13, _⟩ => ⟨S2x4096x512, .f32⟩
  | .hbm, ⟨14, _⟩ => ⟨S2x4096x512, .f32⟩
  | .hbm, ⟨15, _⟩ => ⟨S2x4096x16384, .f32⟩
  | .hbm, ⟨16, _⟩ => ⟨S1x1x16384, .f32⟩
  | .hbm, ⟨17, _⟩ => ⟨S2x4096x16384, .f32⟩
  | .hbm, ⟨18, _⟩ => ⟨S2x4096x16384, .f32⟩
  | .hbm, ⟨19, _⟩ => ⟨S2x4096x4096x4, .f32⟩
  | .hbm, ⟨20, _⟩ => ⟨S_, .i32⟩
  | .hbm, ⟨21, _⟩ => ⟨S_, .f32⟩
  | .hbm, ⟨22, _⟩ => ⟨S2x4099x4096, .f32⟩
  | .hbm, ⟨23, _⟩ => ⟨S2x4096x4096x1, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S2x4096x4096x1, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S2x4096x4096x1, .f32⟩
  | .hbm, ⟨33, _⟩ => ⟨S2x4096x4096, .f32⟩
  | .hbm, ⟨34, _⟩ => ⟨S2x4096x4096, .f32⟩
  | .hbm, ⟨35, _⟩ => ⟨S2x4096x4096, .f32⟩
  | .hbm, ⟨36, _⟩ => ⟨S2x4096x4096, .f32⟩
  | .hbm, ⟨37, _⟩ => ⟨S2x4096x4096x1, .f32⟩
  | .hbm, ⟨38, _⟩ => ⟨S2x4096x4096, .f32⟩
  | .hbm, ⟨39, _⟩ => ⟨S2x4096x4096, .f32⟩
  | .hbm, ⟨40, _⟩ => ⟨S2x4096x4096, .f32⟩
  | .hbm, ⟨41, _⟩ => ⟨S2x4096x4096, .f32⟩
  | .hbm, ⟨42, _⟩ => ⟨S2x4096x4096, .f32⟩
  | .hbm, ⟨43, _⟩ => ⟨S2x4096x4096, .f32⟩
  | .hbm, ⟨44, _⟩ => ⟨S_, .f32⟩
  | .hbm, ⟨45, _⟩ => ⟨S2x4096x4096, .f32⟩
  | .hbm, ⟨46, _⟩ => ⟨S2x4096x4096, .f32⟩
  | .hbm, ⟨47, _⟩ => ⟨S_, .f32⟩
  | .hbm, ⟨48, _⟩ => ⟨S2x4096x4096, .f32⟩
  | .hbm, ⟨49, _⟩ => ⟨S2x4096x4096, .f32⟩
  | .hbm, ⟨50, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call1_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v27 : Ref sig .tc := ⟨.hbm, 50, rfl⟩

abbrev nD : Nat := 1
abbrev τ : Topo := Topo.v7x

variable {F : FTy → Type} [FloatOps F]

class Facts₀ : Prop where
  bcast_S_S2x4096x512 : S_.BroadcastsInDim S2x4096x512 (![] : Fin 0 → Fin S2x4096x512.rank)
  bcast_S16384_S1x1x16384_2 : S16384.BroadcastsInDim S1x1x16384 (![2] : Fin 1 → Fin S1x1x16384.rank)
  bcast_S1x1x16384_S2x4096x16384_0_1_2 : S1x1x16384.BroadcastsInDim S2x4096x16384 (![0, 1, 2] : Fin 3 → Fin S2x4096x16384.rank)
  shapeCasts_S2x4096x16384_S2x4096x4096x4 : S2x4096x16384.ShapeCasts S2x4096x4096x4
  pads_S2x4096x4096_S2x4099x4096_000_300_000 : S2x4096x4096.Pads (![0, 3, 0] : Fin 3 → Nat) ![0, 0, 0] ![0, 0, 0] S2x4099x4096
  h_S_ : 0 < S_.numel
  slices_S2x4096x4096x4_S2x4096x4096x1_0_0_0_0 : S2x4096x4096x4.Slices ![0, 0, 0, 0] S2x4096x4096x1
  shapeCasts_S2x4096x4096x1_S2x4096x4096 : S2x4096x4096x1.ShapeCasts S2x4096x4096
  slices_S2x4099x4096_S2x4096x4096_0_0_0 : S2x4099x4096.Slices ![0, 0, 0] S2x4096x4096
  slices_S2x4096x4096x4_S2x4096x4096x1_0_0_0_1 : S2x4096x4096x4.Slices ![0, 0, 0, 1] S2x4096x4096x1
  slices_S2x4099x4096_S2x4096x4096_0_1_0 : S2x4099x4096.Slices ![0, 1, 0] S2x4096x4096
  slices_S2x4096x4096x4_S2x4096x4096x1_0_0_0_2 : S2x4096x4096x4.Slices ![0, 0, 0, 2] S2x4096x4096x1
  slices_S2x4099x4096_S2x4096x4096_0_2_0 : S2x4099x4096.Slices ![0, 2, 0] S2x4096x4096
  slices_S2x4096x4096x4_S2x4096x4096x1_0_0_0_3 : S2x4096x4096x4.Slices ![0, 0, 0, 3] S2x4096x4096x1
  slices_S2x4099x4096_S2x4096x4096_0_3_0 : S2x4099x4096.Slices ![0, 3, 0] S2x4096x4096
  bcast_S_S2x4096x4096 : S_.BroadcastsInDim S2x4096x4096 (![] : Fin 0 → Fin S2x4096x4096.rank)
  dot_S2x4096x2048_S512x2048_S2x4096x512_2_1_01_0_n_n_wf : DotDims.WF S2x4096x2048 S512x2048 S2x4096x512 [2] [1] [0, 1] [0] [] []
  dot_S2x4096x512_S16384x512_S2x4096x16384_2_1_01_0_n_n_wf : DotDims.WF S2x4096x512 S16384x512 S2x4096x16384 [2] [1] [0, 1] [0] [] []

variable [Facts₀]

def dot_S2x4096x2048_S512x2048_S2x4096x512_2_1_01_0_n_n : DotDims S2x4096x2048 S512x2048 S2x4096x512 where
  lhsContracting := [2]
  rhsContracting := [1]
  lhsNonContracting := [0, 1]
  rhsNonContracting := [0]
  lhsBatch := []
  rhsBatch := []
  wf := dot_S2x4096x2048_S512x2048_S2x4096x512_2_1_01_0_n_n_wf
def dot_S2x4096x512_S16384x512_S2x4096x16384_2_1_01_0_n_n : DotDims S2x4096x512 S16384x512 S2x4096x16384 where
  lhsContracting := [2]
  rhsContracting := [1]
  lhsNonContracting := [0, 1]
  rhsNonContracting := [0]
  lhsBatch := []
  rhsBatch := []
  wf := dot_S2x4096x512_S16384x512_S2x4096x16384_2_1_01_0_n_n_wf

class Facts : Prop extends Facts₀ where

variable [Facts]
-- ==== Proof.LibNatRead.lean ====
/-
  A matrix read at a pair of natural numbers.

  When a large matrix is cut into blocks, the row and column of an entry of a block are sums "block offset + position
  inside the block".  Reading the matrix at natural numbers, each reduced modulo its extent, makes such a reading a
  total function of the two numbers: positions can then be compared by arithmetic alone, with no bound carried inside
  the term.  At numbers below the extents the reading is the matrix entry itself.
-/
import Idealize.ShloMosaic.Lib.ValueIdx

noncomputable section

namespace Cert.LibNatRead

open Idealize.ShloMosaic Idealize.ShloMosaic.ValueIdx

variable {α : Type}

/-- The entry of an [a, b] matrix at row r mod a and column l mod b. -/
def rd2 {a b : ℕ} (ha : 0 < a) (hb : 0 < b) (X : (⟨2, ![a, b]⟩ : Shape).Idx → α) (r l : ℕ) : α :=
  X (ix2 (⟨r % a, Nat.mod_lt _ ha⟩ : Fin a) (⟨l % b, Nat.mod_lt _ hb⟩ : Fin b))

/-- The entry at an index is the reading at the index's two coordinates. -/
theorem rd2_eq {a b : ℕ} (ha : 0 < a) (hb : 0 < b) (X : (⟨2, ![a, b]⟩ : Shape).Idx → α) (i : (⟨2, ![a, b]⟩ : Shape).Idx)
    (r l : ℕ) (h0 : (i 0).val = r) (h1 : (i 1).val = l) : X i = rd2 ha hb X r l := by
  unfold rd2
  refine congrArg X (funext fun ax => Fin.ext ?_)
  match ax with
  | ⟨0, _⟩ =>
    show (i 0).val = r % a
    rw [← h0]; exact (Nat.mod_eq_of_lt (idx2_lt0 i)).symm
  | ⟨1, _⟩ =>
    show (i 1).val = l % b
    rw [← h1]; exact (Nat.mod_eq_of_lt (idx2_lt1 i)).symm

/-- At a row and a column below the extents the reading is the entry. -/
theorem rd2_ix2 {a b : ℕ} (ha : 0 < a) (hb : 0 < b) (X : (⟨2, ![a, b]⟩ : Shape).Idx → α) (r : Fin a) (l : Fin b) :
    rd2 ha hb X r.val l.val = X (ix2 r l) :=
  (rd2_eq ha hb X (ix2 r l) r.val l.val rfl rfl).symm

end Cert.LibNatRead

end
-- ==== Proof.LibNatReadRanks.lean ====
/-
  Arrays of rank one, three and four read at natural numbers.

  Companion of the rank-two reading: an array is read at natural numbers, each reduced modulo the extent of its axis,
  so that a position written as "block offset + position inside the block", or as a quotient and a remainder of a
  flattened position, is compared with another by arithmetic alone and no bound is carried inside a term.  At numbers
  below the extents the reading is the entry itself.
-/
import Idealize.ShloMosaic.Lib.ValueIdx

noncomputable section

namespace Cert.LibNatReadRanks

open Idealize.ShloMosaic Idealize.ShloMosaic.ValueIdx

variable {α : Type}

/-- The entry of a vector [a] at position r mod a. -/
def rd1 {a : ℕ} (ha : 0 < a) (X : (⟨1, ![a]⟩ : Shape).Idx → α) (r : ℕ) : α :=
  X (ix1 (⟨r % a, Nat.mod_lt _ ha⟩ : Fin a))

/-- The entry at an index is the reading at the index's coordinate. -/
theorem rd1_eq {a : ℕ} (ha : 0 < a) (X : (⟨1, ![a]⟩ : Shape).Idx → α) (i : (⟨1, ![a]⟩ : Shape).Idx)
    (r : ℕ) (h0 : (i 0).val = r) : X i = rd1 ha X r := by
  unfold rd1
  refine congrArg X (funext fun ax => Fin.ext ?_)
  match ax with
  | ⟨0, _⟩ =>
    show (i 0).val = r % a
    rw [← h0]; exact (Nat.mod_eq_of_lt (show (i 0).val < a from (i 0).isLt)).symm

/-- The entry of an [a, b, c] array at (p mod a, q mod b, r mod c). -/
def rd3 {a b c : ℕ} (ha : 0 < a) (hb : 0 < b) (hc : 0 < c) (X : (⟨3, ![a, b, c]⟩ : Shape).Idx → α) (p q r : ℕ) : α :=
  X (ix3 (⟨p % a, Nat.mod_lt _ ha⟩ : Fin a) (⟨q % b, Nat.mod_lt _ hb⟩ : Fin b) (⟨r % c, Nat.mod_lt _ hc⟩ : Fin c))

/-- The entry at an index is the reading at the index's three coordinates. -/
theorem rd3_eq {a b c : ℕ} (ha : 0 < a) (hb : 0 < b) (hc : 0 < c) (X : (⟨3, ![a, b, c]⟩ : Shape).Idx → α)
    (i : (⟨3, ![a, b, c]⟩ : Shape).Idx) (p q r : ℕ) (h0 : (i 0).val = p) (h1 : (i 1).val = q) (h2 : (i 2).val = r) :
    X i = rd3 ha hb hc X p q r := by
  unfold rd3
  refine congrArg X (funext fun ax => Fin.ext ?_)
  match ax with
  | ⟨0, _⟩ =>
    show (i 0).val = p % a
    rw [← h0]; exact (Nat.mod_eq_of_lt (show (i 0).val < a from (i 0).isLt)).symm
  | ⟨1, _⟩ =>
    show (i 1).val = q % b
    rw [← h1]; exact (Nat.mod_eq_of_lt (show (i 1).val < b from (i 1).isLt)).symm
  | ⟨2, _⟩ =>
    show (i 2).val = r % c
    rw [← h2]; exact (Nat.mod_eq_of_lt (show (i 2).val < c from (i 2).isLt)).symm

/-- The entry of an [a, b, c, d] array at (p mod a, q mod b, r mod c, s mod d). -/
def rd4 {a b c d : ℕ} (ha : 0 < a) (hb : 0 < b) (hc : 0 < c) (hd : 0 < d) (X : (⟨4, ![a, b, c, d]⟩ : Shape).Idx → α)
    (p q r s : ℕ) : α :=
  X (ix4 (⟨p % a, Nat.mod_lt _ ha⟩ : Fin a) (⟨q % b, Nat.mod_lt _ hb⟩ : Fin b) (⟨r % c, Nat.mod_lt _ hc⟩ : Fin c)
    (⟨s % d, Nat.mod_lt _ hd⟩ : Fin d))

/-- The entry at an index is the reading at the index's four coordinates. -/
theorem rd4_eq {a b c d : ℕ} (ha : 0 < a) (hb : 0 < b) (hc : 0 < c) (hd : 0 < d)
    (X : (⟨4, ![a, b, c, d]⟩ : Shape).Idx → α) (i : (⟨4, ![a, b, c, d]⟩ : Shape).Idx) (p q r s : ℕ)
    (h0 : (i 0).val = p) (h1 : (i 1).val = q) (h2 : (i 2).val = r) (h3 : (i 3).val = s) :
    X i = rd4 ha hb hc hd X p q r s := by
  unfold rd4
  refine congrArg X (funext fun ax => Fin.ext ?_)
  match ax with
  | ⟨0, _⟩ =>
    show (i 0).val = p % a
    rw [← h0]; exact (Nat.mod_eq_of_lt (show (i 0).val < a from (i 0).isLt)).symm
  | ⟨1, _⟩ =>
    show (i 1).val = q % b
    rw [← h1]; exact (Nat.mod_eq_of_lt (show (i 1).val < b from (i 1).isLt)).symm
  | ⟨2, _⟩ =>
    show (i 2).val = r % c
    rw [← h2]; exact (Nat.mod_eq_of_lt (show (i 2).val < c from (i 2).isLt)).symm
  | ⟨3, _⟩ =>
    show (i 3).val = s % d
    rw [← h3]; exact (Nat.mod_eq_of_lt (show (i 3).val < d from (i 3).isLt)).symm

end Cert.LibNatReadRanks

end
-- ==== Proof.Spec.lean ====
/-
  The function both programs compute, entry by entry, on the extended reals.

  For a batch b, a time step t and a channel d the result is

      swish ( Σ_{w < 4}  kern(b, t, 4·d + w) · xp(b, t + w, d) ),        swish q = q · logistic q,

  where xp is the input padded with three zero rows in front of the time axis, the per-token convolution weights are

      kern(b, t, k) = Σ_{g < 512} hid(b, t, g) · w2(k, g) + b2(k),

  and the hidden activations are  hid(b, t, g) = swish ( Σ_{j < 2048} gen(b, t, j) · w1(g, j) ).
  The four taps are added from the left, as both programs add them.  Arrays are read at natural numbers (reduced
  modulo the extents), so a position may be given as a block offset plus a position inside the block.
-/
import Idealize.ShloMosaic.PureOps.Ideal
import Idealize.ShloMosaic.Lib.ValueIdx
import proofs.«130823_j51651276701956_2_alg».proof.Proof.LibNatRead
import proofs.«130823_j51651276701956_2_alg».proof.Proof.LibNatReadRanks

noncomputable section

namespace Cert.Spec

open Idealize.ShloMosaic Idealize.ShloMosaic.ValueIdx Cert.LibNatRead Cert.LibNatReadRanks

/-- q · logistic q. -/
def swish (q : EReal) : EReal := q * Ideal.logistic q

abbrev GenArr := (⟨3, ![2, 4096, 2048]⟩ : Shape).Idx → EReal
abbrev W1Arr := (⟨2, ![512, 2048]⟩ : Shape).Idx → EReal
abbrev W2Arr := (⟨2, ![16384, 512]⟩ : Shape).Idx → EReal
abbrev B2Arr := (⟨1, ![16384]⟩ : Shape).Idx → EReal
abbrev XpArr := (⟨3, ![2, 4099, 4096]⟩ : Shape).Idx → EReal
abbrev OutArr := (⟨3, ![2, 4096, 4096]⟩ : Shape).Idx → EReal

/-- gen(b, t, j). -/
def genAt (gen : GenArr) (b t j : ℕ) : EReal := rd3 (by decide) (by decide) (by decide) gen b t j
/-- w1(g, j). -/
def w1At (w1 : W1Arr) (g j : ℕ) : EReal := rd2 (by decide) (by decide) w1 g j
/-- w2(k, g). -/
def w2At (w2 : W2Arr) (k g : ℕ) : EReal := rd2 (by decide) (by decide) w2 k g
/-- b2(k). -/
def b2At (b2 : B2Arr) (k : ℕ) : EReal := rd1 (by decide) b2 k
/-- xp(b, s, d). -/
def xpAt (xp : XpArr) (b s d : ℕ) : EReal := rd3 (by decide) (by decide) (by decide) xp b s d

/-- The hidden activation hid(b, t, g). -/
def hid (gen : GenArr) (w1 : W1Arr) (b t g : ℕ) : EReal :=
  swish (∑ j : Fin 2048, genAt gen b t j.val * w1At w1 g j.val)

/-- The convolution weight kern(b, t, k). -/
def kern (gen : GenArr) (w1 : W1Arr) (w2 : W2Arr) (b2 : B2Arr) (b t k : ℕ) : EReal :=
  (∑ g : Fin 512, hid gen w1 b t g.val * w2At w2 k g.val) + b2At b2 k

/-- One tap of the causal convolution: kern(b, t, 4·d + w) · xp(b, t + w, d). -/
def tap (gen : GenArr) (w1 : W1Arr) (w2 : W2Arr) (b2 : B2Arr) (xp : XpArr) (b t d w : ℕ) : EReal :=
  kern gen w1 w2 b2 b t (4 * d + w) * xpAt xp b (t + w) d

/-- The result at (b, t, d). -/
def outAt (gen : GenArr) (w1 : W1Arr) (w2 : W2Arr) (b2 : B2Arr) (xp : XpArr) (b t d : ℕ) : EReal :=
  swish (tap gen w1 w2 b2 xp b t d 0 + tap gen w1 w2 b2 xp b t d 1 + tap gen w1 w2 b2 xp b t d 2
    + tap gen w1 w2 b2 xp b t d 3)

/-- The whole result array. -/
def G (gen : GenArr) (w1 : W1Arr) (w2 : W2Arr) (b2 : B2Arr) (xp : XpArr) : OutArr :=
  fun i => outAt gen w1 w2 b2 xp (i 0).val (i 1).val (i 2).val

end Cert.Spec

end
-- ==== Proof.RefIsSpec.lean ====
/-
  The reference program computes the specification, entry by entry.

  The reference forms the hidden activations h = silu(gen · w1ᵀ), the flat convolution weights h · w2ᵀ + b2, regroups
  the last axis of length 16384 as 4096 × 4 (flat position k = 4·d + w), pads the input with three zero rows in front of
  the time axis, multiplies the w-th weight by the padded input shifted by w steps, adds the four products from the
  left and applies silu.  Here silu is spelled q · (1 / (1 + e^(−q))) with the constant one given by its f32 word; on
  the extended reals that is q · logistic q.  Each stage is read at an index and the index is turned into natural-number
  coordinates; the regrouping of the last axis is arithmetic on quotients and remainders of the flattened position.
  The padded input is kept as it is: the specification takes it as an argument.
-/
import proofs.«130823_j51651276701956_2_alg».proof.Proof.Gen.ReferenceIdeal.Read
import proofs.«130823_j51651276701956_2_alg».proof.Proof.Spec
import Idealize.ShloMosaic.Lib.IdealHost

noncomputable section

namespace Cert.ReferenceIdeal.RefValue

open Cert.ReferenceIdeal Cert.ReferenceIdeal.Read Cert.Spec Cert.LibNatRead Cert.LibNatReadRanks
open Idealize.ShloMosaic

/-- q · (1 / (1 + e^(−q))), the one written as its f32 word, is q · logistic q. -/
theorem silu_eq (q : EReal) :
    q * Ideal.div (Ideal.ofBits .f32 0x3F800000#32) (Ideal.ofBits .f32 0x3F800000#32 + Ideal.exp (-q)) = swish q := by
  rw [Ideal.ofBits_one_f32]; rfl

/-- The first product followed by silu is the hidden activation. -/
theorem hid_at (x1 : (⟨S2x4096x2048, .f32⟩ : BufTy).Contents (Elt Ideal)) (x2 : (⟨S512x2048, .f32⟩ : BufTy).Contents (Elt Ideal))
    (i : S2x4096x512.Idx) :
    val_main_v1 (F := Ideal) x1 x2 i = hid x1 x2 (i 0).val (i 1).val (i 2).val := by
  rw [val_main_v1_apply, val_main_call0_v5_apply, val_main_call0_v4_apply, val_main_call0_cst_0_apply,
    val_main_call0_v3_apply, val_main_call0_v2_apply, val_main_call0_cst_apply, val_main_call0_v1_apply,
    val_main_call0_v0_apply, val_main_v0_apply]
  have hS : (∑ k : Fin 2048, x1 (lidx_main_v0 i k) * x2 (ridx_main_v0 i k))
      = ∑ j : Fin 2048, genAt x1 (i 0).val (i 1).val j.val * w1At x2 (i 2).val j.val :=
    Finset.sum_congr rfl fun k _ => by
      rw [rd3_eq (a := 2) (b := 4096) (c := 2048) (by decide) (by decide) (by decide) x1 (lidx_main_v0 i k)
          (i 0).val (i 1).val k.val rfl rfl rfl,
        rd2_eq (a := 512) (b := 2048) (by decide) (by decide) x2 (ridx_main_v0 i k) (i 2).val k.val rfl rfl]
      rfl
  rw [hS]
  exact silu_eq _

/-- The second product plus the bias, at (b, t, k), is the convolution weight kern(b, t, k). -/
theorem kern_at (x1 : (⟨S2x4096x2048, .f32⟩ : BufTy).Contents (Elt Ideal)) (x2 : (⟨S512x2048, .f32⟩ : BufTy).Contents (Elt Ideal))
    (x3 : (⟨S16384x512, .f32⟩ : BufTy).Contents (Elt Ideal)) (x4 : (⟨S16384, .f32⟩ : BufTy).Contents (Elt Ideal))
    (j : S2x4096x16384.Idx) :
    val_main_v5 (F := Ideal) x1 x2 x3 x4 j = kern x1 x2 x3 x4 (j 0).val (j 1).val (j 2).val := by
  rw [val_main_v5_apply, val_main_v4_apply, val_main_v3_apply, val_main_v2_apply]
  have hS : (∑ k : Fin 512, val_main_v1 (F := Ideal) x1 x2 (lidx_main_v2 j k) * x3 (ridx_main_v2 j k))
      = ∑ g : Fin 512, hid x1 x2 (j 0).val (j 1).val g.val * w2At x3 (j 2).val g.val :=
    Finset.sum_congr rfl fun k _ => by
      rw [hid_at, rd2_eq (a := 16384) (b := 512) (by decide) (by decide) x3 (ridx_main_v2 j k) (j 2).val k.val rfl rfl]
      rfl
  rw [hS, rd1_eq (a := 16384) (by decide) x4 (idx_main_v3 (idx_main_v4 j)) (j 2).val rfl]
  rfl

/-- The weights regrouped as [2, 4096, 4096, 4]: the entry (b, t, d, w) is kern(b, t, 4·d + w). -/
theorem kern_cast_at (x1 : (⟨S2x4096x2048, .f32⟩ : BufTy).Contents (Elt Ideal)) (x2 : (⟨S512x2048, .f32⟩ : BufTy).Contents (Elt Ideal))
    (x3 : (⟨S16384x512, .f32⟩ : BufTy).Contents (Elt Ideal)) (x4 : (⟨S16384, .f32⟩ : BufTy).Contents (Elt Ideal))
    (i : S2x4096x4096x4.Idx) (b t d w : ℕ)
    (h0 : (i 0).val = b) (h1 : (i 1).val = t) (h2 : (i 2).val = d) (h3 : (i 3).val = w) :
    val_main_v6 (F := Ideal) x1 x2 x3 x4 i = kern x1 x2 x3 x4 b t (4 * d + w) := by
  rw [val_main_v6_apply, kern_at]
  have hb : (i 0).val < 2 := (i 0).isLt
  have ht : (i 1).val < 4096 := (i 1).isLt
  have hd : (i 2).val < 4096 := (i 2).isLt
  have hw : (i 3).val < 4 := (i 3).isLt
  have e0 : ((idx_main_v6 i) 0).val = b := by
    show ((((i 0).val * 4096 + (i 1).val) * 4096 + (i 2).val) * 4 + (i 3).val) / 67108864 = b
    omega
  have e1 : ((idx_main_v6 i) 1).val = t := by
    show ((((i 0).val * 4096 + (i 1).val) * 4096 + (i 2).val) * 4 + (i 3).val) / 16384 % 4096 = t
    omega
  have e2 : ((idx_main_v6 i) 2).val = 4 * d + w := by
    show ((((i 0).val * 4096 + (i 1).val) * 4096 + (i 2).val) * 4 + (i 3).val) % 16384 = 4 * d + w
    omega
  rw [e0, e1, e2]

/-- Tap 0: the kernels' slice at last coordinate 0, flattened, times the padded input shifted by 0 time steps. -/
theorem tap0_at (x0 : (⟨S2x4096x4096, .f32⟩ : BufTy).Contents (Elt Ideal))
    (x1 : (⟨S2x4096x2048, .f32⟩ : BufTy).Contents (Elt Ideal)) (x2 : (⟨S512x2048, .f32⟩ : BufTy).Contents (Elt Ideal))
    (x3 : (⟨S16384x512, .f32⟩ : BufTy).Contents (Elt Ideal)) (x4 : (⟨S16384, .f32⟩ : BufTy).Contents (Elt Ideal)) (i : S2x4096x4096.Idx) :
    val_main_v11 (F := Ideal) x0 x1 x2 x3 x4 i
      = tap x1 x2 x3 x4 (val_main_v7 (F := Ideal) x0) (i 0).val (i 1).val (i 2).val 0 := by
  have hb : (i 0).val < 2 := (i 0).isLt
  have ht : (i 1).val < 4096 := (i 1).isLt
  have hd : (i 2).val < 4096 := (i 2).isLt
  rw [val_main_v11_apply, val_main_v9_apply, val_main_v8_apply, val_main_v10_apply,
    kern_cast_at x1 x2 x3 x4 (idx_main_v8 (idx_main_v9 i)) (i 0).val (i 1).val (i 2).val 0
      (by show (((i 0).val * 4096 + (i 1).val) * 4096 + (i 2).val) / 16777216 = (i 0).val; omega)
      (by show (((i 0).val * 4096 + (i 1).val) * 4096 + (i 2).val) / 4096 % 4096 = (i 1).val; omega)
      (by show (((i 0).val * 4096 + (i 1).val) * 4096 + (i 2).val) / 1 % 4096 = (i 2).val; omega)
      rfl,
    rd3_eq (a := 2) (b := 4099) (c := 4096) (by decide) (by decide) (by decide) (val_main_v7 (F := Ideal) x0)
      (idx_main_v10 i) (i 0).val ((i 1).val + 0) (i 2).val rfl rfl rfl]
  rfl

/-- Tap 1: the kernels' slice at last coordinate 1, flattened, times the padded input shifted by 1 time steps. -/
theorem tap1_at (x0 : (⟨S2x4096x4096, .f32⟩ : BufTy).Contents (Elt Ideal))
    (x1 : (⟨S2x4096x2048, .f32⟩ : BufTy).Contents (Elt Ideal)) (x2 : (⟨S512x2048, .f32⟩ : BufTy).Contents (Elt Ideal))
    (x3 : (⟨S16384x512, .f32⟩ : BufTy).Contents (Elt Ideal)) (x4 : (⟨S16384, .f32⟩ : BufTy).Contents (Elt Ideal)) (i : S2x4096x4096.Idx) :
    val_main_v15 (F := Ideal) x0 x1 x2 x3 x4 i
      = tap x1 x2 x3 x4 (val_main_v7 (F := Ideal) x0) (i 0).val (i 1).val (i 2).val 1 := by
  have hb : (i 0).val < 2 := (i 0).isLt
  have ht : (i 1).val < 4096 := (i 1).isLt
  have hd : (i 2).val < 4096 := (i 2).isLt
  rw [val_main_v15_apply, val_main_v13_apply, val_main_v12_apply, val_main_v14_apply,
    kern_cast_at x1 x2 x3 x4 (idx_main_v12 (idx_main_v13 i)) (i 0).val (i 1).val (i 2).val 1
      (by show (((i 0).val * 4096 + (i 1).val) * 4096 + (i 2).val) / 16777216 = (i 0).val; omega)
      (by show (((i 0).val * 4096 + (i 1).val) * 4096 + (i 2).val) / 4096 % 4096 = (i 1).val; omega)
      (by show (((i 0).val * 4096 + (i 1).val) * 4096 + (i 2).val) / 1 % 4096 = (i 2).val; omega)
      rfl,
    rd3_eq (a := 2) (b := 4099) (c := 4096) (by decide) (by decide) (by decide) (val_main_v7 (F := Ideal) x0)
      (idx_main_v14 i) (i 0).val ((i 1).val + 1) (i 2).val rfl (by show 1 + (i 1).val = (i 1).val + 1; omega) rfl]
  rfl

/-- Tap 2: the kernels' slice at last coordinate 2, flattened, times the padded input shifted by 2 time steps. -/
theorem tap2_at (x0 : (⟨S2x4096x4096, .f32⟩ : BufTy).Contents (Elt Ideal))
    (x1 : (⟨S2x4096x2048, .f32⟩ : BufTy).Contents (Elt Ideal)) (x2 : (⟨S512x2048, .f32⟩ : BufTy).Contents (Elt Ideal))
    (x3 : (⟨S16384x512, .f32⟩ : BufTy).Contents (Elt Ideal)) (x4 : (⟨S16384, .f32⟩ : BufTy).Contents (Elt Ideal)) (i : S2x4096x4096.Idx) :
    val_main_v20 (F := Ideal) x0 x1 x2 x3 x4 i
      = tap x1 x2 x3 x4 (val_main_v7 (F := Ideal) x0) (i 0).val (i 1).val (i 2).val 2 := by
  have hb : (i 0).val < 2 := (i 0).isLt
  have ht : (i 1).val < 4096 := (i 1).isLt
  have hd : (i 2).val < 4096 := (i 2).isLt
  rw [val_main_v20_apply, val_main_v18_apply, val_main_v17_apply, val_main_v19_apply,
    kern_cast_at x1 x2 x3 x4 (idx_main_v17 (idx_main_v18 i)) (i 0).val (i 1).val (i 2).val 2
      (by show (((i 0).val * 4096 + (i 1).val) * 4096 + (i 2).val) / 16777216 = (i 0).val; omega)
      (by show (((i 0).val * 4096 + (i 1).val) * 4096 + (i 2).val) / 4096 % 4096 = (i 1).val; omega)
      (by show (((i 0).val * 4096 + (i 1).val) * 4096 + (i 2).val) / 1 % 4096 = (i 2).val; omega)
      rfl,
    rd3_eq (a := 2) (b := 4099) (c := 4096) (by decide) (by decide) (by decide) (val_main_v7 (F := Ideal) x0)
      (idx_main_v19 i) (i 0).val ((i 1).val + 2) (i 2).val rfl (by show 2 + (i 1).val = (i 1).val + 2; omega) rfl]
  rfl

/-- Tap 3: the kernels' slice at last coordinate 3, flattened, times the padded input shifted by 3 time steps. -/
theorem tap3_at (x0 : (⟨S2x4096x4096, .f32⟩ : BufTy).Contents (Elt Ideal))
    (x1 : (⟨S2x4096x2048, .f32⟩ : BufTy).Contents (Elt Ideal)) (x2 : (⟨S512x2048, .f32⟩ : BufTy).Contents (Elt Ideal))
    (x3 : (⟨S16384x512, .f32⟩ : BufTy).Contents (Elt Ideal)) (x4 : (⟨S16384, .f32⟩ : BufTy).Contents (Elt Ideal)) (i : S2x4096x4096.Idx) :
    val_main_v25 (F := Ideal) x0 x1 x2 x3 x4 i
      = tap x1 x2 x3 x4 (val_main_v7 (F := Ideal) x0) (i 0).val (i 1).val (i 2).val 3 := by
  have hb : (i 0).val < 2 := (i 0).isLt
  have ht : (i 1).val < 4096 := (i 1).isLt
  have hd : (i 2).val < 4096 := (i 2).isLt
  rw [val_main_v25_apply, val_main_v23_apply, val_main_v22_apply, val_main_v24_apply,
    kern_cast_at x1 x2 x3 x4 (idx_main_v22 (idx_main_v23 i)) (i 0).val (i 1).val (i 2).val 3
      (by show (((i 0).val * 4096 + (i 1).val) * 4096 + (i 2).val) / 16777216 = (i 0).val; omega)
      (by show (((i 0).val * 4096 + (i 1).val) * 4096 + (i 2).val) / 4096 % 4096 = (i 1).val; omega)
      (by show (((i 0).val * 4096 + (i 1).val) * 4096 + (i 2).val) / 1 % 4096 = (i 2).val; omega)
      rfl,
    rd3_eq (a := 2) (b := 4099) (c := 4096) (by decide) (by decide) (by decide) (val_main_v7 (F := Ideal) x0)
      (idx_main_v24 i) (i 0).val ((i 1).val + 3) (i 2).val rfl (by show 3 + (i 1).val = (i 1).val + 3; omega) rfl]
  rfl

/-- The reference's result is the specification at the arguments and the padded input. -/
theorem ref_eq (x0 : (⟨S2x4096x4096, .f32⟩ : BufTy).Contents (Elt Ideal))
    (x1 : (⟨S2x4096x2048, .f32⟩ : BufTy).Contents (Elt Ideal)) (x2 : (⟨S512x2048, .f32⟩ : BufTy).Contents (Elt Ideal))
    (x3 : (⟨S16384x512, .f32⟩ : BufTy).Contents (Elt Ideal)) (x4 : (⟨S16384, .f32⟩ : BufTy).Contents (Elt Ideal)) :
    val_main_v27 (F := Ideal) x0 x1 x2 x3 x4 = G x1 x2 x3 x4 (val_main_v7 (F := Ideal) x0) := by
  funext i
  rw [val_main_v27_apply, val_main_call2_v5_apply, val_main_call2_v4_apply, val_main_call2_cst_0_apply,
    val_main_call2_v3_apply, val_main_call2_v2_apply, val_main_call2_cst_apply, val_main_call2_v1_apply,
    val_main_call2_v0_apply, val_main_v26_apply, val_main_v21_apply, val_main_v16_apply,
    tap0_at, tap1_at, tap2_at, tap3_at]
  exact silu_eq _

end Cert.ReferenceIdeal.RefValue

end
-- ==== Proof.KernelRun.lean ====
/-
  The idealized kernel's run with its result named.

  The program is two kernel regions among stretches of host operations.  Launching it over the segments of its main
  function, every weakly fair execution terminates without a fault, and at the end every unscoped buffer of a core holds
  the contents the fold through the segments gives it.  Read at the arguments this is the frame; read at the result
  buffer it says that the result is what the second region's write-backs leave in its output array.
-/
import proofs.«130823_j51651276701956_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the contents the
    fold through the segments gives it, and the arguments end as launched. -/
theorem run_fold : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

/-- The result buffer's contents in the fold are what the second region leaves in its output array. -/
theorem fold_result (c : Dev nD) :
    W5 m ρ c (Proc.devRef .tc main_v11) = (dat1 (V4 m ρ) c).arrAt 4 cfg1.N :=
  W5_arr m ρ c 4

end Cert.KernelIdeal.RunValue

end
-- ==== Proof.FoldContents.lean ====
/-
  What the kernels' operand buffers hold when each kernel region is entered.

  The program's main function is a sequence: a stretch of host operations, the first kernel region, two more stretches of
  host operations, the second kernel region.  The contents of a core's buffers at each boundary are a fold of these
  steps over the launch memory.  Each equation below evaluates that fold at one buffer a kernel region reads: the
  buffer holds the host operations that produced it, applied to the launch contents of the program's arguments, or,
  for the hidden activations, to the array the first region's write-backs leave.
-/
import proofs.«130823_j51651276701956_2_alg».proof.Proof.Gen.KernelIdeal.Frame
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- At the first region's entry the flattened generator input is the reshape of the launched argument. -/
theorem V1_main_v0 : (V1 m ρ c main_v0 : S8192x2048.Idx → Elt F .f32)
    = shapeCast S8192x2048 (m ((c : Thread nD τ).loc main_arg1)) shapeCasts_S2x4096x2048_S8192x2048 := by
  show StableHlo.after hostOps0 (W0 m ρ c) (Proc.devRef .tc main_v0) = _
  dsimp only [hostOps0]
  after_results
  rfl

/-- At the first region's entry the first weight is the launched argument transposed and narrowed. -/
theorem V1_main_v2 : (V1 m ρ c main_v2 : S2048x512.Idx → Elt F .bf16)
    = truncf .bf16 (transpose S2048x512 [1, 0] (m ((c : Thread nD τ).loc main_arg2)) transposes_S512x2048_S2048x512_1_0)
        bitsLt_bf16_f32 := by
  show StableHlo.after hostOps0 (W0 m ρ c) (Proc.devRef .tc main_v2) = _
  dsimp only [hostOps0]
  after_results

/-! ## The arguments at the first region's exit: no host operation before it and no window of it writes one -/

/-- An argument no operation of the first stretch writes holds, at the first region's exit, its launch contents. -/
theorem W2_main_arg0 : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  dsimp only [hostOps0]
  after_results

theorem W2_main_arg3 : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  dsimp only [hostOps0]
  after_results

theorem W2_main_arg4 : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  dsimp only [hostOps0]
  after_results

/-- The first region's output array, as its exit contents. -/
theorem W2_main_v3 : W2 m ρ c (Proc.devRef .tc main_v3) = (dat0 (V1 m ρ) c).arrAt 2 cfg0.N :=
  W2_arr m ρ c 2

/-- At the second region's entry the hidden activations are the first region's output array, given its batch axis back. -/
theorem V4_main_v4 : (V4 m ρ c main_v4 : S2x4096x512.Idx → Elt F .bf16)
    = shapeCast S2x4096x512 ((dat0 (V1 m ρ) c).arrAt 2 cfg0.N) shapeCasts_S8192x512_S2x4096x512 := by
  show StableHlo.after hostOps1_1 (W3 m ρ c) (Proc.devRef .tc main_v4) = _
  dsimp only [hostOps1_1, W3, hostOps1]
  after_results
  rw [W2_main_v3 m ρ c]
  rfl

/-- At the second region's entry the second weight is the launched argument regrouped by tap and narrowed. -/
theorem V4_main_v7 : (V4 m ρ c main_v7 : S4x512x4096.Idx → Elt F .bf16)
    = truncf .bf16 (transpose S4x512x4096 [1, 2, 0]
        (shapeCast S4096x4x512 (m ((c : Thread nD τ).loc main_arg3)) shapeCasts_S16384x512_S4096x4x512)
        transposes_S4096x4x512_S4x512x4096_1_2_0) bitsLt_bf16_f32 := by
  show StableHlo.after hostOps1_1 (W3 m ρ c) (Proc.devRef .tc main_v7) = _
  dsimp only [hostOps1_1, W3, hostOps1]
  after_results
  rw [W2_main_arg3 m ρ c]
  rfl

/-- At the second region's entry the bias is the launched argument regrouped by tap. -/
theorem V4_main_v9 : (V4 m ρ c main_v9 : S4x4096.Idx → Elt F .f32)
    = transpose S4x4096 [1, 0] (shapeCast S4096x4 (m ((c : Thread nD τ).loc main_arg4)) shapeCasts_S16384_S4096x4)
        transposes_S4096x4_S4x4096_1_0 := by
  show StableHlo.after hostOps1_1 (W3 m ρ c) (Proc.devRef .tc main_v9) = _
  dsimp only [hostOps1_1, W3, hostOps1]
  after_results
  rw [W2_main_arg4 m ρ c]
  rfl

/-- At the second region's entry the padded input is the launched argument with three rows of the constant zero in
    front of its time axis. -/
theorem V4_main_v10 : (V4 m ρ c main_v10 : S2x4099x4096.Idx → Elt F .f32)
    = pad S2x4099x4096 ![0, 3, 0] ![0, 0, 0] ![0, 0, 0] (m ((c : Thread nD τ).loc main_arg0))
        (sitofp .f32 (constantI S_ 32 0#32)) pads_S2x4096x4096_S2x4099x4096_000_300_000 h_S_ := by
  show StableHlo.after hostOps1_1 (W3 m ρ c) (Proc.devRef .tc main_v10) = _
  dsimp only [hostOps1_1, W3, hostOps1]
  after_results
  rw [W2_main_arg0 m ρ c]
  rfl

end Cert.KernelIdeal.Fold

end
-- ==== Proof.Region1Pieces.lean ====
/-
  The second kernel's loop, read as values.

  The body of the second kernel is a loop of four trips.  Trip k loads rows 1024·k … 1024·k + 1023 of the hidden
  activations and rows 1024·k … 1024·k + 1026 of the padded input (three rows more than it writes: the causal window),
  the four weight slices and the four bias rows, and stores ONE piece into the output buffer: at row offset 1024·k,
  the body's arithmetic of those loads.  Hence every piece the whole loop writes is such a piece for some trip k, and
  since the pieces tile the buffer, the buffer ends holding any function of which every piece is a restriction.
-/
import proofs.«130823_j51651276701956_2_alg».proof.Proof.Gen.KernelIdeal.Frame
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem

variable {F : FTy → Type} [FloatOps F]

/-- What trip k stores: the body's arithmetic of the slabs it loads at row offset 1024·k and of the four weight
    slices and bias rows. -/
def tripPay (y0 : Vec F S1x4096x512 .bf16) (y1 : Vec F S1x4099x256 .f32) (y2 : Vec F S4x512x256 .bf16)
    (y3 : Vec F S4x256 .f32) (k : Fin k1_t1_loop.trips) : FVec F S1x1024x256 .f32 :=
  k1_pay1
    (k1_pay2 (View.ld y0 (Rect.unit (k1_off1 k) S1x1024x512.size (k1_off1_inb k))))
    (k1_pay3 (View.ld y1 (Rect.unit (k1_off2 k) S1x1027x256.size (k1_off2_inb k))))
    (k1_pay4 (View.ld y0 (Rect.unit (k1_off1 k) S1x1024x512.size (k1_off1_inb k)))
      (View.ld y1 (Rect.unit (k1_off2 k) S1x1027x256.size (k1_off2_inb k)))
      (View.ld y2 (Rect.unit ![0, 0, 0] S1x512x256.size inb_S4x512x256_S1x512x256_0_0_0))
      (View.ld y3 (Rect.unit ![0, 0] S1x256.size inb_S4x256_S1x256_0_0))
      (View.ld y2 (Rect.unit ![1, 0, 0] S1x512x256.size inb_S4x512x256_S1x512x256_1_0_0))
      (View.ld y3 (Rect.unit ![1, 0] S1x256.size inb_S4x256_S1x256_1_0)))
    (k1_pay5 (View.ld y2 (Rect.unit ![2, 0, 0] S1x512x256.size inb_S4x512x256_S1x512x256_2_0_0)))
    (View.ld y3 (Rect.unit ![2, 0] S1x256.size inb_S4x256_S1x256_2_0))
    (View.ld y2 (Rect.unit ![3, 0, 0] S1x512x256.size inb_S4x512x256_S1x512x256_3_0_0))
    (View.ld y3 (Rect.unit ![3, 0] S1x256.size inb_S4x256_S1x256_3_0))

/-- The piece of trip k: at row offset 1024·k, what the trip stores. -/
def tripPiece (y0 : Vec F S1x4096x512 .bf16) (y1 : Vec F S1x4099x256 .f32) (y2 : Vec F S4x512x256 .bf16)
    (y3 : Vec F S4x256 .f32) (k : Fin k1_t1_loop.trips) : View.Piece (Elt F) S1x4096x256 .f32 :=
  ⟨Rect.unit (s := S1x4096x256) (k1_off3 k) S1x1024x256.size (k1_off3_inb k), tripPay y0 y1 y2 y3 k⟩

/-- One trip writes exactly its piece. -/
theorem tripL_eq (𝒱 : Variants) (c : Dev nD) (bd : Option 𝒱.V) (i : grid1.Coords) (arg2 : Memref sig .tc .vmem S1x4096x512 .bf16) (harg2 : arg2.IsWhole) (arg3 : Memref sig .tc .vmem S1x4099x256 .f32) (harg3 : arg3.IsWhole) (arg4 : Memref sig .tc .vmem S4x512x256 .bf16) (harg4 : arg4.IsWhole) (arg5 : Memref sig .tc .vmem S4x256 .f32) (harg5 : arg5.IsWhole) (arg6 : Memref sig .tc .vmem S1x4096x256 .f32) (harg6 : arg6.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k1_t1_loop.trips) :
    tripL_k1_t1 (F := F) 𝒱 c bd i arg2 harg2 arg3 harg3 arg4 harg4 arg5 harg5 arg6 harg6 X_arg2 X_arg3 X_arg4 X_arg5 k
      = [tripPiece (arg2.view.read (Elt F) X_arg2) (arg3.view.read (Elt F) X_arg3) (arg4.view.read (Elt F) X_arg4)
          (arg5.view.read (Elt F) X_arg5) k] := by
  unfold tripL_k1_t1 trip_k1_t1
  rfl

/-- Every piece written before trip n is the piece of some trip. -/
theorem pb_pieces (𝒱 : Variants) (c : Dev nD) (bd : Option 𝒱.V) (i : grid1.Coords) (arg2 : Memref sig .tc .vmem S1x4096x512 .bf16) (harg2 : arg2.IsWhole) (arg3 : Memref sig .tc .vmem S1x4099x256 .f32) (harg3 : arg3.IsWhole) (arg4 : Memref sig .tc .vmem S4x512x256 .bf16) (harg4 : arg4.IsWhole) (arg5 : Memref sig .tc .vmem S4x256 .f32) (harg5 : arg5.IsWhole) (arg6 : Memref sig .tc .vmem S1x4096x256 .f32) (harg6 : arg6.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) :
    ∀ (n : ℕ) (p : View.Piece (Elt F) S1x4096x256 .f32),
      p ∈ pb_k1_t1 (F := F) 𝒱 c bd i arg2 harg2 arg3 harg3 arg4 harg4 arg5 harg5 arg6 harg6 X_arg2 X_arg3 X_arg4 X_arg5 n →
      ∃ k : Fin k1_t1_loop.trips, p = tripPiece (arg2.view.read (Elt F) X_arg2) (arg3.view.read (Elt F) X_arg3)
        (arg4.view.read (Elt F) X_arg4) (arg5.view.read (Elt F) X_arg5) k
  | 0, p, hp => by
    rw [pb_k1_t1.eq_1] at hp
    exact absurd hp List.not_mem_nil
  | n + 1, p, hp => by
    rw [pb_k1_t1.eq_2] at hp
    unfold pb_k1_t1Step at hp
    by_cases h : n < k1_t1_loop.trips
    · rw [dif_pos h] at hp
      rcases List.mem_append.mp hp with h1 | h2
      · rw [tripL_eq] at h1
        exact ⟨⟨n, h⟩, List.mem_singleton.mp h1⟩
      · exact pb_pieces 𝒱 c bd i arg2 harg2 arg3 harg3 arg4 harg4 arg5 harg5 arg6 harg6 X_arg2 X_arg3 X_arg4 X_arg5 n p h2
    · rw [dif_neg h] at hp
      exact pb_pieces 𝒱 c bd i arg2 harg2 arg3 harg3 arg4 harg4 arg5 harg5 arg6 harg6 X_arg2 X_arg3 X_arg4 X_arg5 n p hp

/-- Every piece the body's run leaves in the output buffer is the piece of some trip, over the input blocks. -/
theorem run_pieces (c : Dev nD) (i : grid1.Coords) (arg2 : Memref sig .tc .vmem S1x4096x512 .bf16) (harg2 : arg2.IsWhole) (arg3 : Memref sig .tc .vmem S1x4099x256 .f32) (harg3 : arg3.IsWhole) (arg4 : Memref sig .tc .vmem S4x512x256 .bf16) (harg4 : arg4.IsWhole) (arg5 : Memref sig .tc .vmem S4x256 .f32) (harg5 : arg5.IsWhole) (arg6 : Memref sig .tc .vmem S1x4096x256 .f32) (harg6 : arg6.IsWhole)
    (x0 : Vec F S1x4096x512 .bf16) (x1 : Vec F S1x4099x256 .f32) (x2 : Vec F S4x512x256 .bf16) (x3 : Vec F S4x256 .f32)
    (p : View.Piece (Elt F) S1x4096x256 .f32)
    (hp : p ∈ (kernelRun1_A (F := F) c i arg2 harg2 arg3 harg3 arg4 harg4 arg5 harg5 arg6 harg6 x0 x1 x2 x3).1) :
    ∃ k : Fin k1_t1_loop.trips, p = tripPiece x0 x1 x2 x3 k := by
  have hL : (kernelRun1_A (F := F) c i arg2 harg2 arg3 harg3 arg4 harg4 arg5 harg5 arg6 harg6 x0 x1 x2 x3).1
      = pb_k1_t1 (F := F) Variants.none c none i arg2 harg2 arg3 harg3 arg4 harg4 arg5 harg5 arg6 harg6 (harg2.unread x0) (harg3.unread x1) (harg4.unread x2)
          (harg5.unread x3) k1_t1_loop.trips := by
    unfold kernelRun1_A
    rfl
  rw [hL] at hp
  obtain ⟨k, hk⟩ := pb_pieces Variants.none c none i arg2 harg2 arg3 harg3 arg4 harg4 arg5 harg5 arg6 harg6 _ _ _ _ _ p hp
  refine ⟨k, ?_⟩
  rw [hk, harg2.read_unread, harg3.read_unread, harg4.read_unread, harg5.read_unread]

/-- The output buffer after the body is any function B of which every trip's piece is a restriction. -/
theorem out_eq_of_pieces (c : Dev nD) (i : grid1.Coords) (arg2 : Memref sig .tc .vmem S1x4096x512 .bf16) (harg2 : arg2.IsWhole) (arg3 : Memref sig .tc .vmem S1x4099x256 .f32) (harg3 : arg3.IsWhole) (arg4 : Memref sig .tc .vmem S4x512x256 .bf16) (harg4 : arg4.IsWhole) (arg5 : Memref sig .tc .vmem S4x256 .f32) (harg5 : arg5.IsWhole) (arg6 : Memref sig .tc .vmem S1x4096x256 .f32) (harg6 : arg6.IsWhole)
    (x0 : Vec F S1x4096x512 .bf16) (x1 : Vec F S1x4099x256 .f32) (x2 : Vec F S4x512x256 .bf16) (x3 : Vec F S4x256 .f32)
    (B : S1x4096x256.Idx → Elt F .f32)
    (hB : ∀ (k : Fin k1_t1_loop.trips) (x : (Rect.unit (s := S1x4096x256) (k1_off3 k) S1x1024x256.size (k1_off3_inb k)).shape.Idx),
      tripPay x0 x1 x2 x3 k x = B ((Rect.unit (s := S1x4096x256) (k1_off3 k) S1x1024x256.size (k1_off3_inb k)).emb x)) :
    out1_A_4 (F := F) c i arg2 harg2 arg3 harg3 arg4 harg4 arg5 harg5 arg6 harg6 x0 x1 x2 x3 = B := by
  unfold out1_A_4
  rw [View.read_writes_eq_canon _ _ _ (cover1_A_4 c i arg2 harg2 arg3 harg3 arg4 harg4 arg5 harg5 arg6 harg6 x0 x1 x2 x3)]
  funext y
  refine View.canon_apply_of_pieces B _ (fun p hp x => ?_) y (cover1_A_4 c i arg2 harg2 arg3 harg3 arg4 harg4 arg5 harg5 arg6 harg6 x0 x1 x2 x3 y)
  obtain ⟨k, rfl⟩ := run_pieces c i arg2 harg2 arg3 harg3 arg4 harg4 arg5 harg5 arg6 harg6 x0 x1 x2 x3 p hp
  exact hB k x

end Cert.KernelIdeal.Region1

end
-- ==== Proof.Region1Array.lean ====
/-
  The second region's output array, from its blocks.

  The second region runs over a grid of 2 × 16 points (batch b, channel tile e of 256 channels).  At a point its five
  windows are: the hidden activations of batch b (all 4096 time steps), the padded input of batch b on the tile's
  channels (4099 rows), the four weight slices and the four bias rows on the tile's channels, and the output block of
  batch b on the tile's channels.  If what the body leaves in the output block is the causal four-tap sum written over
  the BLOCKS' entries (blockFn), then what the point writes back is the same sum written over the ARRAYS' entries
  (arrFn) read through the point's block; the 32 blocks tile the output array, so the array ends holding arrFn.
-/
import proofs.«130823_j51651276701956_2_alg».proof.Proof.Gen.KernelIdeal.Frame
import Idealize.ShloMosaic.Lib.Pipeline.Value
import proofs.«130823_j51651276701956_2_alg».proof.Proof.Spec

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Cert.LibNatRead Cert.LibNatReadRanks

/-- One tap over a point's blocks: row r of the hidden block against tap w's weight slice at channel e, plus the bias,
    times row r + w of the padded block. -/
def blockTap (x0 : (⟨3, ![1, 4096, 512]⟩ : Shape).Idx → EReal) (x1 : (⟨3, ![1, 4099, 256]⟩ : Shape).Idx → EReal)
    (x2 : (⟨3, ![4, 512, 256]⟩ : Shape).Idx → EReal) (x3 : (⟨2, ![4, 256]⟩ : Shape).Idx → EReal) (r e w : ℕ) : EReal :=
  ((∑ g : Fin 512, rd3 (by decide) (by decide) (by decide) x0 0 r g.val * rd3 (by decide) (by decide) (by decide) x2 w g.val e)
      + rd2 (by decide) (by decide) x3 w e)
    * rd3 (by decide) (by decide) (by decide) x1 0 (r + w) e

/-- What the body leaves in the output block, over the point's input blocks. -/
def blockFn (x0 : (⟨3, ![1, 4096, 512]⟩ : Shape).Idx → EReal) (x1 : (⟨3, ![1, 4099, 256]⟩ : Shape).Idx → EReal)
    (x2 : (⟨3, ![4, 512, 256]⟩ : Shape).Idx → EReal) (x3 : (⟨2, ![4, 256]⟩ : Shape).Idx → EReal) :
    (⟨3, ![1, 4096, 256]⟩ : Shape).Idx → EReal := fun y =>
  Cert.Spec.swish (blockTap x0 x1 x2 x3 (y 1).val (y 2).val 0 + blockTap x0 x1 x2 x3 (y 1).val (y 2).val 1
    + blockTap x0 x1 x2 x3 (y 1).val (y 2).val 2 + blockTap x0 x1 x2 x3 (y 1).val (y 2).val 3)

/-- One tap over the region's arrays. -/
def arrTap (h3 : (⟨3, ![2, 4096, 512]⟩ : Shape).Idx → EReal) (xp : (⟨3, ![2, 4099, 4096]⟩ : Shape).Idx → EReal)
    (w2t : (⟨3, ![4, 512, 4096]⟩ : Shape).Idx → EReal) (b2t : (⟨2, ![4, 4096]⟩ : Shape).Idx → EReal) (b t d w : ℕ) : EReal :=
  ((∑ g : Fin 512, rd3 (by decide) (by decide) (by decide) h3 b t g.val * rd3 (by decide) (by decide) (by decide) w2t w g.val d)
      + rd2 (by decide) (by decide) b2t w d)
    * rd3 (by decide) (by decide) (by decide) xp b (t + w) d

/-- The causal four-tap sum over the region's arrays, entry by entry. -/
def arrFn (h3 : (⟨3, ![2, 4096, 512]⟩ : Shape).Idx → EReal) (xp : (⟨3, ![2, 4099, 4096]⟩ : Shape).Idx → EReal)
    (w2t : (⟨3, ![4, 512, 4096]⟩ : Shape).Idx → EReal) (b2t : (⟨2, ![4, 4096]⟩ : Shape).Idx → EReal) :
    (⟨3, ![2, 4096, 4096]⟩ : Shape).Idx → EReal := fun i =>
  Cert.Spec.swish (arrTap h3 xp w2t b2t (i 0).val (i 1).val (i 2).val 0 + arrTap h3 xp w2t b2t (i 0).val (i 1).val (i 2).val 1
    + arrTap h3 xp w2t b2t (i 0).val (i 1).val (i 2).val 2 + arrTap h3 xp w2t b2t (i 0).val (i 1).val (i 2).val 3)

variable (V : (c : Dev nD) → (b : Ref sig .tc) → Buf (Elt Ideal) ((c : Thread nD τ).loc b))

/-- The windows' block indices at a grid point, decided over the 32 points: every window follows the output's batch
    and channel-tile indices. -/
theorem index_facts : ∀ t : Fin cfg1.N,
    win1_0.index t (0 : Fin 3) = win1_4.index t (0 : Fin 3) ∧ win1_0.index t (1 : Fin 3) = 0 ∧ win1_0.index t (2 : Fin 3) = 0
    ∧ win1_1.index t (0 : Fin 3) = win1_4.index t (0 : Fin 3) ∧ win1_1.index t (1 : Fin 3) = 0
    ∧ win1_1.index t (2 : Fin 3) = win1_4.index t (2 : Fin 3)
    ∧ win1_2.index t (0 : Fin 3) = 0 ∧ win1_2.index t (1 : Fin 3) = 0 ∧ win1_2.index t (2 : Fin 3) = win1_4.index t (2 : Fin 3)
    ∧ win1_3.index t (0 : Fin 2) = 0 ∧ win1_3.index t (1 : Fin 2) = win1_4.index t (2 : Fin 3)
    ∧ win1_4.index t (0 : Fin 3) ≤ 1 ∧ win1_4.index t (1 : Fin 3) = 0 ∧ win1_4.index t (2 : Fin 3) ≤ 15 :=
  (by decide +kernel : ∀ t : Fin grid1.N, _)

/-- Every (batch, channel tile) pair is some point's output block. -/
theorem index_onto : ∀ (q0 : Fin 2) (q2 : Fin 16), ∃ t : Fin cfg1.N, win1_4.index t = ![q0.val, 0, q2.val] :=
  (by decide +kernel : ∀ (q0 : Fin 2) (q2 : Fin 16), ∃ t : Fin grid1.N, win1_4.index t = ![q0.val, 0, q2.val])

/-- The hidden block at a point, read at (0, r, g), is the hidden array at (b, r, g). -/
theorem hid_block_read (c : Dev nD) (t : Fin cfg1.N) (r g : ℕ) (hr : r < 4096) (hg : g < 512) :
    rd3 (by decide) (by decide) (by decide) (iblk1 V c 0 t) 0 r g
      = rd3 (by decide) (by decide) (by decide) (V c main_v4) (win1_4.index t (0 : Fin 3)) r g := by
  obtain ⟨e0, e1, e2, e3, e4, e5, e6, e7, e8, e9, e10, e11, e12, e13⟩ := index_facts t
  unfold rd3
  show V c main_v4 (((cfg1.win 0).blk t).view.emb _) = V c main_v4 _
  refine congrArg (V c main_v4) (funext fun a => Fin.ext ?_)
  match a with
  | ⟨0, _⟩ => show win1_0.index t (0 : Fin 3) * 1 + 1 * (0 % 1) = win1_4.index t (0 : Fin 3) % 2; omega
  | ⟨1, _⟩ => show win1_0.index t (1 : Fin 3) * 4096 + 1 * (r % 4096) = r % 4096; omega
  | ⟨2, _⟩ => show win1_0.index t (2 : Fin 3) * 512 + 1 * (g % 512) = g % 512; omega

/-- The padded block at a point, read at (0, s, e), is the padded array at (b, s, 256·tile + e). -/
theorem pad_block_read (c : Dev nD) (t : Fin cfg1.N) (s e : ℕ) (hs : s < 4099) (he : e < 256) :
    rd3 (by decide) (by decide) (by decide) (iblk1 V c 1 t) 0 s e
      = rd3 (by decide) (by decide) (by decide) (V c main_v10) (win1_4.index t (0 : Fin 3)) s
          (win1_4.index t (2 : Fin 3) * 256 + e) := by
  obtain ⟨e0, e1, e2, e3, e4, e5, e6, e7, e8, e9, e10, e11, e12, e13⟩ := index_facts t
  unfold rd3
  show V c main_v10 (((cfg1.win 1).blk t).view.emb _) = V c main_v10 _
  refine congrArg (V c main_v10) (funext fun a => Fin.ext ?_)
  match a with
  | ⟨0, _⟩ => show win1_1.index t (0 : Fin 3) * 1 + 1 * (0 % 1) = win1_4.index t (0 : Fin 3) % 2; omega
  | ⟨1, _⟩ => show win1_1.index t (1 : Fin 3) * 4099 + 1 * (s % 4099) = s % 4099; omega
  | ⟨2, _⟩ => show win1_1.index t (2 : Fin 3) * 256 + 1 * (e % 256) = (win1_4.index t (2 : Fin 3) * 256 + e) % 4096; omega

/-- The weight block at a point, read at (w, g, e), is the regrouped weight array at (w, g, 256·tile + e). -/
theorem weight_block_read (c : Dev nD) (t : Fin cfg1.N) (w g e : ℕ) (hw : w < 4) (hg : g < 512) (he : e < 256) :
    rd3 (by decide) (by decide) (by decide) (iblk1 V c 2 t) w g e
      = rd3 (by decide) (by decide) (by decide) (V c main_v7) w g (win1_4.index t (2 : Fin 3) * 256 + e) := by
  obtain ⟨e0, e1, e2, e3, e4, e5, e6, e7, e8, e9, e10, e11, e12, e13⟩ := index_facts t
  unfold rd3
  show V c main_v7 (((cfg1.win 2).blk t).view.emb _) = V c main_v7 _
  refine congrArg (V c main_v7) (funext fun a => Fin.ext ?_)
  match a with
  | ⟨0, _⟩ => show win1_2.index t (0 : Fin 3) * 4 + 1 * (w % 4) = w % 4; omega
  | ⟨1, _⟩ => show win1_2.index t (1 : Fin 3) * 512 + 1 * (g % 512) = g % 512; omega
  | ⟨2, _⟩ => show win1_2.index t (2 : Fin 3) * 256 + 1 * (e % 256) = (win1_4.index t (2 : Fin 3) * 256 + e) % 4096; omega

/-- The bias block at a point, read at (w, e), is the regrouped bias array at (w, 256·tile + e). -/
theorem bias_block_read (c : Dev nD) (t : Fin cfg1.N) (w e : ℕ) (hw : w < 4) (he : e < 256) :
    rd2 (by decide) (by decide) (iblk1 V c 3 t) w e
      = rd2 (by decide) (by decide) (V c main_v9) w (win1_4.index t (2 : Fin 3) * 256 + e) := by
  obtain ⟨e0, e1, e2, e3, e4, e5, e6, e7, e8, e9, e10, e11, e12, e13⟩ := index_facts t
  unfold rd2
  show V c main_v9 (((cfg1.win 3).blk t).view.emb _) = V c main_v9 _
  refine congrArg (V c main_v9) (funext fun a => Fin.ext ?_)
  match a with
  | ⟨0, _⟩ => show win1_3.index t (0 : Fin 2) * 4 + 1 * (w % 4) = w % 4; omega
  | ⟨1, _⟩ => show win1_3.index t (1 : Fin 2) * 256 + 1 * (e % 256) = (win1_4.index t (2 : Fin 3) * 256 + e) % 4096; omega

/-- One tap over the point's blocks is the tap over the arrays at the block's place. -/
theorem blockTap_eq (c : Dev nD) (t : Fin cfg1.N) (r e w : ℕ) (hr : r < 4096) (he : e < 256) (hw : w < 4) :
    blockTap (iblk1 V c 0 t) (iblk1 V c 1 t) (iblk1 V c 2 t) (iblk1 V c 3 t) r e w
      = arrTap (V c main_v4) (V c main_v10) (V c main_v7) (V c main_v9) (win1_4.index t (0 : Fin 3)) r
          (win1_4.index t (2 : Fin 3) * 256 + e) w := by
  unfold blockTap arrTap
  rw [pad_block_read V c t (r + w) e (by omega) he, bias_block_read V c t w e hw he]
  refine congrArg₂ (· * ·) (congrArg₂ (· + ·) (Finset.sum_congr rfl fun g _ => ?_) rfl) rfl
  rw [hid_block_read V c t r g.val hr g.isLt, weight_block_read V c t w g.val e hw g.isLt he]

/-- What a point writes back is the arrays' four-tap sum read through the point's block. -/
theorem flushed_eq (c : Dev nD)
    (hout : ∀ (t : Fin cfg1.N), outsAt1 (F := Ideal) V c t
      = blockFn (iblk1 V c 0 t) (iblk1 V c 1 t) (iblk1 V c 2 t) (iblk1 V c 3 t))
    (t : Fin cfg1.N) :
    (dat1 (F := Ideal) V c).flushed 4 t
      = ((cfg1.win 4).blk t).view.read (Elt Ideal) (arrFn (V c main_v4) (V c main_v10) (V c main_v7) (V c main_v9)) := by
  show (cfg1.win 4).cut (grid1.coords t) ((dat1 (F := Ideal) V c).after 4 t) = _
  rw [after1_4, hout t]
  obtain ⟨e0, e1, e2, e3, e4, e5, e6, e7, e8, e9, e10, e11, e12, e13⟩ := index_facts t
  funext y
  have hy1 : (y 1).val < 4096 := (y 1).isLt
  have hy2 : (y 2).val < 256 := (y 2).isLt
  have hy0 : (y 0).val < 1 := (y 0).isLt
  show blockFn (iblk1 V c 0 t) (iblk1 V c 1 t) (iblk1 V c 2 t) (iblk1 V c 3 t) y
    = arrFn (V c main_v4) (V c main_v10) (V c main_v7) (V c main_v9) (((cfg1.win 4).blk t).view.emb y)
  have c0 : ((((cfg1.win 4).blk t).view.emb y) 0).val = win1_4.index t (0 : Fin 3) := by
    show win1_4.index t (0 : Fin 3) * 1 + 1 * (y 0).val = _; omega
  have c1 : ((((cfg1.win 4).blk t).view.emb y) 1).val = (y 1).val := by
    show win1_4.index t (1 : Fin 3) * 4096 + 1 * (y 1).val = _; omega
  have c2 : ((((cfg1.win 4).blk t).view.emb y) 2).val = win1_4.index t (2 : Fin 3) * 256 + (y 2).val := by
    show win1_4.index t (2 : Fin 3) * 256 + 1 * (y 2).val = _; omega
  unfold blockFn arrFn
  rw [c0, c1, c2, blockTap_eq V c t _ _ 0 hy1 hy2 (by decide), blockTap_eq V c t _ _ 1 hy1 hy2 (by decide),
    blockTap_eq V c t _ _ 2 hy1 hy2 (by decide), blockTap_eq V c t _ _ 3 hy1 hy2 (by decide)]

/-- An index of the output array is in a point's block iff each coordinate is in the block's range on its axis. -/
theorem mem_block (t : Fin cfg1.N) (i : S2x4096x4096.Idx) :
    i ∈ ((cfg1.win 4).blk t).view.set
      ↔ ∀ a : Fin 3, win1_4.index t a * S1x4096x256.size a ≤ (i a).val
          ∧ (i a).val < win1_4.index t a * S1x4096x256.size a + S1x4096x256.size a := by
  show i ∈ ((View.whole main_v11).slice (win1_4.rect t)).set ↔ _
  rw [View.set_slice_whole, Rect.mem_set_unit]
  exact Iff.rfl

/-- The 32 blocks cover the output array: entry (b, t, d) lies in the block of batch b and channel tile d / 256. -/
theorem covered (i : S2x4096x4096.Idx) :
    ∃ t : Fin cfg1.N, (cfg1.win 4).flush t = true ∧ i ∈ ((cfg1.win 4).blk t).view.set := by
  have hi0 : (i 0).val < 2 := (i 0).isLt
  have hi1 : (i 1).val < 4096 := (i 1).isLt
  have hi2 : (i 2).val < 4096 := (i 2).isLt
  obtain ⟨t, ht⟩ := index_onto ⟨(i 0).val, hi0⟩ ⟨(i 2).val / 256, by omega⟩
  have q0 : win1_4.index t (0 : Fin 3) = (i 0).val := congrFun ht 0
  have q1 : win1_4.index t (1 : Fin 3) = 0 := congrFun ht 1
  have q2 : win1_4.index t (2 : Fin 3) = (i 2).val / 256 := congrFun ht 2
  refine ⟨t, flush1_4 t, ?_⟩
  rw [mem_block]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 4096 ≤ (i 1).val ∧ (i 1).val < win1_4.index t (1 : Fin 3) * 4096 + 4096; omega
  | ⟨2, _⟩ => show win1_4.index t (2 : Fin 3) * 256 ≤ (i 2).val ∧ (i 2).val < win1_4.index t (2 : Fin 3) * 256 + 256; omega

/-- The output array after the region: the causal four-tap sum over the region's arrays as it found them. -/
theorem region1_array (c : Dev nD)
    (hout : ∀ (t : Fin cfg1.N), outsAt1 (F := Ideal) V c t
      = blockFn (iblk1 V c 0 t) (iblk1 V c 1 t) (iblk1 V c 2 t) (iblk1 V c 3 t)) :
    (dat1 (F := Ideal) V c).arrAt 4 cfg1.N = arrFn (V c main_v4) (V c main_v10) (V c main_v7) (V c main_v9) :=
  (dat1 (F := Ideal) V c).arrAt_eq_of_cover 4 _ (fun t _ => flushed_eq V c hout t) covered

end Cert.KernelIdeal.Region1

end
-- ==== Proof.Payloads.lean ====
/-
  The two kernel bodies read at one entry.

  First body.  With X the [1024, 2048] block of inputs and W the [2048, 512] block of weights, the entry (r, g) of the
  result is  swish ( Σ_{j < 2048} X(r, j) · W(j, g) ):  the matrix product accumulates into the zero matrix, and on the
  extended reals the changes of format are the identity.

  Second body.  With H the [1, 1024, 512] slab of hidden activations, P the [1, 1027, 256] slab of padded input, and for
  each tap o < 4 a [1, 512, 256] weight slice W_o and a [1, 256] bias row B_o, the entry (0, r, e) of the result is

      swish ( tap_0 + tap_1 + tap_2 + tap_3 ),   tap_o = ( Σ_{g < 512} H(0, r, g) · W_o(0, g, e) + B_o(0, e) ) · P(0, r + o, e),

  the taps added from the left onto a zero accumulator, which disappears.  Each layout step is read at an index: a
  leading unit axis dropped or added keeps the remaining coordinates, a row spread over 1024 rows reads the row, and
  the window of P starting at row o reads row r + o.
-/
import proofs.«130823_j51651276701956_2_alg».proof.Proof.Gen.KernelIdeal.Skeleton
import proofs.«130823_j51651276701956_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen

/-- Row coordinate of the left operand's index in the first product. -/
theorem hid_lhs_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide),
    dif_pos (show (0 : Fin S1024x2048.rank) ∈ dot_S1024x2048_S2048x512_S1024x512_1_0_0_1_n_n.lhsNonContracting by decide)]
  rfl
theorem hid_lhs_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem hid_rhs_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem hid_rhs_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide),
    dif_pos (show (1 : Fin S2048x512.rank) ∈ dot_S1024x2048_S2048x512_S1024x512_1_0_0_1_n_n.rhsNonContracting by decide)]
  rfl

/-- The first matrix product, into the zero matrix, at (r, g): the sum over the 2048 contracted positions. -/
theorem matmul_hidden_apply (x : FVec Ideal S1024x2048 .bf16) (w : FVec Ideal S2048x512 .bf16) (r : Fin 1024) (g : Fin 512) :
    matmul dot_S1024x2048_S2048x512_S1024x512_1_0_0_1_n_n none x w (constant (F := Ideal) S1024x512 .f32 0x00000000#32) (ix2 r g)
      = ∑ j : Fin 2048, x (ix2 r j) * w (ix2 j g) := by
  simp only [matmul]
  rw [Ideal.matmul_constant_zero_apply,
    ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 r g)
      ((contrEquiv1 dot_S1024x2048_S2048x512_S1024x512_1_0_0_1_n_n 2048 rfl rfl).symm k) = ix2 r k :=
    funext fun a => Fin.ext (by
      match a with
      | ⟨0, _⟩ => exact hid_lhs_0 _ _
      | ⟨1, _⟩ => exact (hid_lhs_1 _ _).trans hk)
  have er : dot_S1024x2048_S2048x512_S1024x512_1_0_0_1_n_n.rhsIdx (ix2 r g)
      ((contrEquiv1 dot_S1024x2048_S2048x512_S1024x512_1_0_0_1_n_n 2048 rfl rfl).symm k) = ix2 k g :=
    funext fun a => Fin.ext (by
      match a with
      | ⟨0, _⟩ => exact (hid_rhs_0 _ _).trans hk
      | ⟨1, _⟩ => exact hid_rhs_1 _ _)
  rw [el, er]

/-- The first kernel's result at (r, g): the swish of the row of v0 against the column of v3. -/
theorem k0_pay1_apply (v0 : Vec Ideal S1024x2048 .f32) (v3 : Vec Ideal S2048x512 .bf16) (r : Fin 1024) (g : Fin 512) :
    Gen.k0_pay1 (F := Ideal) v0 v3 (ix2 r g) = Cert.Spec.swish (∑ j : Fin 2048, v0 (ix2 r j) * v3 (ix2 j g)) := by
  unfold Gen.k0_pay1
  simp only [shapeCast_self]
  show _ * FloatOps.logistic (F := Ideal) _ = _
  rw [matmul_hidden_apply]
  rfl

/-! ## The second kernel -/

theorem kern_lhs_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem kern_lhs_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem kern_rhs_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem kern_rhs_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The second matrix product, into the zero matrix, at (r, e): the sum over the 512 contracted positions. -/
theorem matmul_kern_apply (x : FVec Ideal S1024x512 .bf16) (w : FVec Ideal S512x256 .bf16) (r : Fin 1024) (e : Fin 256) :
    matmul dot_S1024x512_S512x256_S1024x256_1_0_0_1_n_n none x w (constant (F := Ideal) S1024x256 .f32 0x00000000#32) (ix2 r e)
      = ∑ g : Fin 512, x (ix2 r g) * w (ix2 g e) := by
  simp only [matmul]
  rw [Ideal.matmul_constant_zero_apply,
    ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r e)
      ((contrEquiv1 dot_S1024x512_S512x256_S1024x256_1_0_0_1_n_n 512 rfl rfl).symm k) = ix2 r k :=
    funext fun a => Fin.ext (by
      match a with
      | ⟨0, _⟩ => exact kern_lhs_0 _ _
      | ⟨1, _⟩ => exact (kern_lhs_1 _ _).trans hk)
  have er : dot_S1024x512_S512x256_S1024x256_1_0_0_1_n_n.rhsIdx (ix2 r e)
      ((contrEquiv1 dot_S1024x512_S512x256_S1024x256_1_0_0_1_n_n 512 rfl rfl).symm k) = ix2 k e :=
    funext fun a => Fin.ext (by
      match a with
      | ⟨0, _⟩ => exact (kern_rhs_0 _ _).trans hk
      | ⟨1, _⟩ => exact kern_rhs_1 _ _)
  rw [el, er]

/-- The slab of hidden activations with its unit axis dropped, at (r, g). -/
theorem k1_pay2_apply (v6 : Vec Ideal S1x1024x512 .bf16) (r : Fin 1024) (g : Fin 512) :
    Gen.k1_pay2 (F := Ideal) v6 (ix2 r g) = v6 (ix3 0 r g) := by
  unfold Gen.k1_pay2
  exact shapeCast_1ab_ab_apply v6 _ r g

/-- The slab of padded input with its unit axis dropped, at (s, e). -/
theorem k1_pay3_apply (v9 : Vec Ideal S1x1027x256 .f32) (s : Fin 1027) (e : Fin 256) :
    Gen.k1_pay3 (F := Ideal) v9 (ix2 s e) = v9 (ix3 0 s e) := by
  unfold Gen.k1_pay3
  exact shapeCast_1ab_ab_apply v9 _ s e

/-- A bias row [1, 256] flattened, restored and spread over the 1024 rows, at (r, e): the row's entry e. -/
theorem bias_row_apply (Bv : Vec Ideal S1x256 .f32) (r : Fin 1024) (e : Fin 256) :
    broadcastTo S1024x256 (shapeCast S1x256 (shapeCast S256 Bv shapeCasts_S1x256_S256) shapeCasts_S256_S1x256)
      broadcasts_S1x256_S1024x256 (ix2 r e) = Bv (ix2 0 e) := by
  rw [broadcastTo_1b_ab_apply, shapeCast_a_1a_apply, shapeCast_1a_a_apply]

/-- One tap at (r, e): the row r of the hidden slab against the column e of the tap's weights, plus the bias entry e,
    times the padded input at row r + o. -/
def tapAt (v6 : Vec Ideal S1x1024x512 .bf16) (v9 : Vec Ideal S1x1027x256 .f32) (W : Vec Ideal S1x512x256 .bf16)
    (Bv : Vec Ideal S1x256 .f32) (r : Fin 1024) (e : Fin 256) (o : ℕ) (hw : r.val + o < 1027) : EReal :=
  ((∑ g : Fin 512, v6 (ix3 0 r g) * W (ix3 0 g e)) + Bv (ix2 0 e)) * v9 (ix3 0 ⟨r.val + o, hw⟩ e)

/-- The kernel's term for one tap, read at (r, e). -/
theorem tap_apply (v6 : Vec Ideal S1x1024x512 .bf16) (v9 : Vec Ideal S1x1027x256 .f32) (W : Vec Ideal S1x512x256 .bf16)
    (Bv : Vec Ideal S1x256 .f32) (o : ℕ) (hs : S1027x256.Slices ![o, 0] S1024x256) (r : Fin 1024) (e : Fin 256)
    (hw : r.val + o < 1027) :
    mulf (addf (matmul dot_S1024x512_S512x256_S1024x256_1_0_0_1_n_n none (Gen.k1_pay2 (F := Ideal) v6)
          (shapeCast S512x256 W shapeCasts_S1x512x256_S512x256 : FVec Ideal S512x256 .bf16)
          (constant (F := Ideal) S1024x256 .f32 0x00000000#32))
        (broadcastTo S1024x256 (shapeCast S1x256 (shapeCast S256 Bv shapeCasts_S1x256_S256) shapeCasts_S256_S1x256)
          broadcasts_S1x256_S1024x256))
      (extractStridedSlice S1024x256 ![o, 0] (Gen.k1_pay3 (F := Ideal) v9) hs) (ix2 r e)
      = tapAt v6 v9 W Bv r e o hw := by
  rw [mulf_apply, addf_apply, matmul_kern_apply, bias_row_apply,
    slice2_axis0_apply o _ hs r e ⟨r.val + o, hw⟩ (Nat.add_comm _ _), k1_pay3_apply]
  simp only [k1_pay2_apply, shapeCast_1ab_ab_apply]
  rfl

/-- A logistic of a vector, read at an index. -/
theorem logistic_apply {s : Shape} (v : FVec Ideal s .f32) (i : s.Idx) : logistic v i = Ideal.logistic (v i) := rfl

/-- The second kernel's result at (u, r, e), u the unit coordinate: the swish of the four taps added from the left. -/
theorem k1_pay1_apply (v6 : Vec Ideal S1x1024x512 .bf16) (v9 : Vec Ideal S1x1027x256 .f32)
    (v12 : Vec Ideal S1x512x256 .bf16) (v14 : Vec Ideal S1x256 .f32) (v23 : Vec Ideal S1x512x256 .bf16) (v25 : Vec Ideal S1x256 .f32)
    (v34 : Vec Ideal S1x512x256 .bf16) (v36 : Vec Ideal S1x256 .f32) (v45 : Vec Ideal S1x512x256 .bf16) (v47 : Vec Ideal S1x256 .f32)
    (u : Fin 1) (r : Fin 1024) (e : Fin 256) :
    Gen.k1_pay1 (F := Ideal) (Gen.k1_pay2 v6) (Gen.k1_pay3 v9) (Gen.k1_pay4 v6 v9 v12 v14 v23 v25) (Gen.k1_pay5 v34) v36 v45 v47
        (ix3 u r e)
      = Cert.Spec.swish (tapAt v6 v9 v12 v14 r e 0 (by omega) + tapAt v6 v9 v23 v25 r e 1 (by omega)
          + tapAt v6 v9 v34 v36 r e 2 (by omega) + tapAt v6 v9 v45 v47 r e 3 (by omega)) := by
  unfold Gen.k1_pay1 Gen.k1_pay4 Gen.k1_pay5
  dsimp only
  rw [shapeCast_ab_1ab_apply, mulf_apply, logistic_apply, addf_apply, addf_apply, addf_apply, addf_apply, broadcast_apply,
    tap_apply v6 v9 v12 v14 0 _ r e (by omega), tap_apply v6 v9 v23 v25 1 _ r e (by omega),
    tap_apply v6 v9 v34 v36 2 _ r e (by omega), tap_apply v6 v9 v45 v47 3 _ r e (by omega)]
  rw [show (Scalar.ofBits (F := Ideal) .f32 0x00000000#32) = (0 : EReal) from Ideal.ofBits_zero_f32, zero_add]
  rfl

/-- The same with the taps written out. -/
theorem k1_pay1_apply_sum (v6 : Vec Ideal S1x1024x512 .bf16) (v9 : Vec Ideal S1x1027x256 .f32)
    (v12 : Vec Ideal S1x512x256 .bf16) (v14 : Vec Ideal S1x256 .f32) (v23 : Vec Ideal S1x512x256 .bf16) (v25 : Vec Ideal S1x256 .f32)
    (v34 : Vec Ideal S1x512x256 .bf16) (v36 : Vec Ideal S1x256 .f32) (v45 : Vec Ideal S1x512x256 .bf16) (v47 : Vec Ideal S1x256 .f32)
    (u : Fin 1) (r : Fin 1024) (e : Fin 256) :
    Gen.k1_pay1 (F := Ideal) (Gen.k1_pay2 v6) (Gen.k1_pay3 v9) (Gen.k1_pay4 v6 v9 v12 v14 v23 v25) (Gen.k1_pay5 v34) v36 v45 v47
        (ix3 u r e)
      = Cert.Spec.swish (
          ((∑ g : Fin 512, v6 (ix3 0 r g) * v12 (ix3 0 g e)) + v14 (ix2 0 e)) * v9 (ix3 0 ⟨r.val + 0, by omega⟩ e)
          + ((∑ g : Fin 512, v6 (ix3 0 r g) * v23 (ix3 0 g e)) + v25 (ix2 0 e)) * v9 (ix3 0 ⟨r.val + 1, by omega⟩ e)
          + ((∑ g : Fin 512, v6 (ix3 0 r g) * v34 (ix3 0 g e)) + v36 (ix2 0 e)) * v9 (ix3 0 ⟨r.val + 2, by omega⟩ e)
          + ((∑ g : Fin 512, v6 (ix3 0 r g) * v45 (ix3 0 g e)) + v47 (ix2 0 e)) * v9 (ix3 0 ⟨r.val + 3, by omega⟩ e)) :=
  k1_pay1_apply v6 v9 v12 v14 v23 v25 v34 v36 v45 v47 u r e

end Cert.KernelIdeal.Payloads

end
-- ==== Proof.Region1Block.lean ====
/-
  What the second kernel's body leaves in the output block.

  Trip k of the body's loop stores, at rows 1024·k … 1024·k + 1023 of the output block, the four-tap sum of the slabs
  it loaded at the same row offset.  A slab is a rectangle of a block: its entry (0, r, g) is the block's entry
  (0, 1024·k + r, g), and the padded slab's row r + w is the padded block's row 1024·k + r + w.  So each trip's piece is a
  restriction of ONE function of the block position, the causal four-tap sum over the blocks, and that function is
  what the body leaves in the output block.
-/
import proofs.«130823_j51651276701956_2_alg».proof.Proof.Region1Pieces
import proofs.«130823_j51651276701956_2_alg».proof.Proof.Region1Array
import proofs.«130823_j51651276701956_2_alg».proof.Proof.Payloads

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Cert.LibNatRead Cert.LibNatReadRanks

/-- A rank-three array read through a rectangle of unit strides: the rectangle's entry j is the array's entry at
    offset + j on each axis. -/
theorem ld3_read {a b c : ℕ} {e' : EltTy} (ha : 0 < a) (hb : 0 < b) (hc : 0 < c)
    (X : (⟨3, ![a, b, c]⟩ : Shape).Idx → Elt Ideal e')
    (off sz : Fin 3 → ℕ) (inb : ∀ ax, off ax + sz ax ≤ (⟨3, ![a, b, c]⟩ : Shape).size ax)
    (j : (Rect.unit (s := ⟨3, ![a, b, c]⟩) off sz inb).shape.Idx) (p q r : ℕ)
    (h0 : off 0 + (j 0).val = p) (h1 : off 1 + (j 1).val = q) (h2 : off 2 + (j 2).val = r) :
    View.ld (Val := Elt Ideal) X (Rect.unit (s := ⟨3, ![a, b, c]⟩) off sz inb) j = rd3 ha hb hc X p q r := by
  show X ((Rect.unit (s := ⟨3, ![a, b, c]⟩) off sz inb).emb j) = _
  refine rd3_eq ha hb hc X _ p q r ?_ ?_ ?_
  · rw [Rect.emb_apply]; show off 0 + 1 * (j 0).val = p; omega
  · rw [Rect.emb_apply]; show off 1 + 1 * (j 1).val = q; omega
  · rw [Rect.emb_apply]; show off 2 + 1 * (j 2).val = r; omega

/-- The same at rank two. -/
theorem ld2_read {a b : ℕ} {e' : EltTy} (ha : 0 < a) (hb : 0 < b) (X : (⟨2, ![a, b]⟩ : Shape).Idx → Elt Ideal e')
    (off sz : Fin 2 → ℕ) (inb : ∀ ax, off ax + sz ax ≤ (⟨2, ![a, b]⟩ : Shape).size ax)
    (j : (Rect.unit (s := ⟨2, ![a, b]⟩) off sz inb).shape.Idx) (p q : ℕ)
    (h0 : off 0 + (j 0).val = p) (h1 : off 1 + (j 1).val = q) :
    View.ld (Val := Elt Ideal) X (Rect.unit (s := ⟨2, ![a, b]⟩) off sz inb) j = rd2 ha hb X p q := by
  show X ((Rect.unit (s := ⟨2, ![a, b]⟩) off sz inb).emb j) = _
  refine rd2_eq ha hb X _ p q ?_ ?_
  · rw [Rect.emb_apply]; show off 0 + 1 * (j 0).val = p; omega
  · rw [Rect.emb_apply]; show off 1 + 1 * (j 1).val = q; omega

/-- One tap over the slabs trip k loads is the tap over the blocks at row 1024·k + r. -/
theorem tap_block (x0 : Vec Ideal S1x4096x512 .bf16) (x1 : Vec Ideal S1x4099x256 .f32) (x2 : Vec Ideal S4x512x256 .bf16)
    (x3 : Vec Ideal S4x256 .f32) (k : Fin k1_t1_loop.trips)
    (offW : Fin 3 → ℕ) (inbW : ∀ ax, offW ax + S1x512x256.size ax ≤ S4x512x256.size ax)
    (offB : Fin 2 → ℕ) (inbB : ∀ ax, offB ax + S1x256.size ax ≤ S4x256.size ax) (w : ℕ)
    (hW0 : offW 0 = w) (hW1 : offW 1 = 0) (hW2 : offW 2 = 0) (hB0 : offB 0 = w) (hB1 : offB 1 = 0)
    (r : Fin 1024) (e : Fin 256) (hw : r.val + w < 1027) :
    Payloads.tapAt (View.ld x0 (Rect.unit (s := S1x4096x512) (k1_off1 k) S1x1024x512.size (k1_off1_inb k)))
        (View.ld x1 (Rect.unit (s := S1x4099x256) (k1_off2 k) S1x1027x256.size (k1_off2_inb k)))
        (View.ld x2 (Rect.unit (s := S4x512x256) offW S1x512x256.size inbW))
        (View.ld x3 (Rect.unit (s := S4x256) offB S1x256.size inbB)) r e w hw
      = blockTap x0 x1 x2 x3 (1024 * k.val + r.val) e.val w := by
  have p0 : k1_off1 k 0 = 0 := congrFun (k1_off1_eq k) 0
  have p1 : k1_off1 k 1 = 1024 * k.val := congrFun (k1_off1_eq k) 1
  have p2 : k1_off1 k 2 = 0 := congrFun (k1_off1_eq k) 2
  have q0 : k1_off2 k 0 = 0 := congrFun (k1_off2_eq k) 0
  have q1 : k1_off2 k 1 = 1024 * k.val := congrFun (k1_off2_eq k) 1
  have q2 : k1_off2 k 2 = 0 := congrFun (k1_off2_eq k) 2
  have a1 : View.ld x1 (Rect.unit (s := S1x4099x256) (k1_off2 k) S1x1027x256.size (k1_off2_inb k)) (ix3 0 ⟨r.val + w, hw⟩ e)
      = rd3 (α := EReal) (a := 1) (b := 4099) (c := 256) (by decide) (by decide) (by decide) x1 0 (1024 * k.val + r.val + w) e.val :=
    ld3_read (by decide) (by decide) (by decide) x1 (k1_off2 k) S1x1027x256.size (k1_off2_inb k)
      (ix3 0 ⟨r.val + w, hw⟩ e) 0 (1024 * k.val + r.val + w) e.val
      (by rw [q0]; rfl) (by rw [q1]; show 1024 * k.val + (r.val + w) = _; omega) (by rw [q2]; show 0 + e.val = _; omega)
  have a3 : View.ld x3 (Rect.unit (s := S4x256) offB S1x256.size inbB) (ix2 0 e)
      = rd2 (α := EReal) (a := 4) (b := 256) (by decide) (by decide) x3 w e.val :=
    ld2_read (by decide) (by decide) x3 offB S1x256.size inbB (ix2 0 e) w e.val
      (by rw [hB0]; rfl) (by rw [hB1]; show 0 + e.val = _; omega)
  have a0 : ∀ g : Fin 512, View.ld x0 (Rect.unit (s := S1x4096x512) (k1_off1 k) S1x1024x512.size (k1_off1_inb k)) (ix3 0 r g)
      = rd3 (α := EReal) (a := 1) (b := 4096) (c := 512) (by decide) (by decide) (by decide) x0 0 (1024 * k.val + r.val) g.val :=
    fun g => ld3_read (by decide) (by decide) (by decide) x0 (k1_off1 k) S1x1024x512.size (k1_off1_inb k)
      (ix3 0 r g) 0 (1024 * k.val + r.val) g.val
      (by rw [p0]; rfl) (by rw [p1]; rfl) (by rw [p2]; show 0 + g.val = _; omega)
  have a2 : ∀ g : Fin 512, View.ld x2 (Rect.unit (s := S4x512x256) offW S1x512x256.size inbW) (ix3 0 g e)
      = rd3 (α := EReal) (a := 4) (b := 512) (c := 256) (by decide) (by decide) (by decide) x2 w g.val e.val :=
    fun g => ld3_read (by decide) (by decide) (by decide) x2 offW S1x512x256.size inbW (ix3 0 g e) w g.val e.val
      (by rw [hW0]; rfl) (by rw [hW1]; show 0 + g.val = _; omega) (by rw [hW2]; show 0 + e.val = _; omega)
  unfold Payloads.tapAt blockTap
  exact congrArg₂ (· * ·)
    (congrArg₂ (· + ·) (Finset.sum_congr rfl fun g _ => congrArg₂ (· * ·) (a0 g) (a2 g)) a3) a1

/-- What trip k stores is the blocks' four-tap sum at the piece's place in the output block. -/
theorem tripPay_eq (x0 : Vec Ideal S1x4096x512 .bf16) (x1 : Vec Ideal S1x4099x256 .f32) (x2 : Vec Ideal S4x512x256 .bf16)
    (x3 : Vec Ideal S4x256 .f32) (k : Fin k1_t1_loop.trips)
    (x : (Rect.unit (s := S1x4096x256) (k1_off3 k) S1x1024x256.size (k1_off3_inb k)).shape.Idx) :
    tripPay (F := Ideal) x0 x1 x2 x3 k x
      = blockFn x0 x1 x2 x3 ((Rect.unit (s := S1x4096x256) (k1_off3 k) S1x1024x256.size (k1_off3_inb k)).emb x) := by
  obtain ⟨u, r, e, rfl⟩ : ∃ (u : Fin 1) (r : Fin 1024) (e : Fin 256), x = ix3 u r e :=
    ⟨x 0, x 1, x 2, eq_ix3 (n0 := 1) (n1 := 1024) (n2 := 256) x⟩
  have s1 : k1_off3 k 1 = 1024 * k.val := congrFun (k1_off3_eq k) 1
  have s2 : k1_off3 k 2 = 0 := congrFun (k1_off3_eq k) 2
  have c1 : (((Rect.unit (s := S1x4096x256) (k1_off3 k) S1x1024x256.size (k1_off3_inb k)).emb (ix3 u r e)) 1).val
      = 1024 * k.val + r.val := by
    rw [Rect.emb_apply]; show k1_off3 k 1 + 1 * r.val = _; rw [s1]; omega
  have c2 : (((Rect.unit (s := S1x4096x256) (k1_off3 k) S1x1024x256.size (k1_off3_inb k)).emb (ix3 u r e)) 2).val
      = e.val := by
    rw [Rect.emb_apply]; show k1_off3 k 2 + 1 * e.val = _; rw [s2]; omega
  unfold tripPay blockFn
  rw [c1, c2, Payloads.k1_pay1_apply,
    tap_block x0 x1 x2 x3 k ![0, 0, 0] inb_S4x512x256_S1x512x256_0_0_0 ![0, 0] inb_S4x256_S1x256_0_0 0 rfl rfl rfl rfl rfl,
    tap_block x0 x1 x2 x3 k ![1, 0, 0] inb_S4x512x256_S1x512x256_1_0_0 ![1, 0] inb_S4x256_S1x256_1_0 1 rfl rfl rfl rfl rfl,
    tap_block x0 x1 x2 x3 k ![2, 0, 0] inb_S4x512x256_S1x512x256_2_0_0 ![2, 0] inb_S4x256_S1x256_2_0 2 rfl rfl rfl rfl rfl,
    tap_block x0 x1 x2 x3 k ![3, 0, 0] inb_S4x512x256_S1x512x256_3_0_0 ![3, 0] inb_S4x256_S1x256_3_0 3 rfl rfl rfl rfl rfl]

/-- At every grid point the output block after the body is the four-tap sum over the point's input blocks. -/
theorem outsAt_eq (V : (c : Dev nD) → (b : Ref sig .tc) → Buf (Elt Ideal) ((c : Thread nD τ).loc b)) (c : Dev nD)
    (t : Fin cfg1.N) :
    outsAt1 (F := Ideal) V c t = blockFn (iblk1 V c 0 t) (iblk1 V c 1 t) (iblk1 V c 2 t) (iblk1 V c 3 t) := by
  unfold outsAt1
  exact out_eq_of_pieces c (grid1.coords t) (ms1_0 t) (hs1_0 t) (ms1_1 t) (hs1_1 t) (ms1_2 t) (hs1_2 t) (ms1_3 t)
    (hs1_3 t) (ms1_4 t) (hs1_4 t) (iblk1 V c 0 t) (iblk1 V c 1 t) (iblk1 V c 2 t) (iblk1 V c 3 t)
    (blockFn (iblk1 V c 0 t) (iblk1 V c 1 t) (iblk1 V c 2 t) (iblk1 V c 3 t))
    (fun k x => tripPay_eq (iblk1 V c 0 t) (iblk1 V c 1 t) (iblk1 V c 2 t) (iblk1 V c 3 t) k x)

end Cert.KernelIdeal.Region1

end
-- ==== Proof.HostStages.lean ====
/-
  The arrays the kernels are given, read at coordinates.

  Before each kernel runs, its operands are regrouped: an array is reshaped (its entries kept in row-major order),
  its axes are permuted, and its number format is narrowed (on the extended reals a narrowing changes nothing).
  Each lemma below reads one such regrouped array at an index whose coordinates are given as natural numbers, and
  says which entry of the original array that is:

    * a [2, 4096, 2048] array flattened to [8192, 2048]: row p is (p / 4096, p % 4096);
    * a [512, 2048] matrix transposed: entry (j, g) is the original's (g, j);
    * an [8192, 512] matrix given a leading axis of 2: entry (b, t, g) is row 4096·b + t, column g;
    * a [16384, 512] matrix cut into [4096, 4, 512] and its axes turned to [4, 512, 4096]:
      entry (w, g, d) is row 4·d + w, column g;
    * a [16384] vector cut into [4096, 4] and transposed to [4, 4096]: entry (w, d) is position 4·d + w.

  A reshape is read by matching row-major positions, a transpose by matching each result axis with its source axis.
-/
import proofs.«130823_j51651276701956_2_alg».proof.KernelIdeal
import Idealize.ShloMosaic.Lib.Pipeline.Value
import Idealize.ShloMosaic.Lib.ValueIdx
import Idealize.ShloMosaic.Lib.ValueLayout
import proofs.«130823_j51651276701956_2_alg».proof.Proof.LibNatRead
import proofs.«130823_j51651276701956_2_alg».proof.Proof.LibNatReadRanks

noncomputable section

namespace Cert.KernelIdeal.HostStages

open Cert.KernelIdeal Idealize.ShloMosaic Idealize.ShloMosaic.ValueIdx Cert.LibNatRead Cert.LibNatReadRanks

variable [Facts₀]
open Facts₀

/-- The [2, 4096, 2048] array flattened to [8192, 2048]: row p, column j is entry (p / 4096, p % 4096, j). -/
theorem flatten_gen_apply (x : FVec Ideal S2x4096x2048 .f32) (i : S8192x2048.Idx) (p j : ℕ)
    (h0 : (i 0).val = p) (h1 : (i 1).val = j) :
    shapeCast S8192x2048 x shapeCasts_S2x4096x2048_S8192x2048 i
      = rd3 (by decide) (by decide) (by decide) x (p / 4096) (p % 4096) j := by
  have b0 : (i 0).val < 8192 := idx2_lt0 i
  have b1 : (i 1).val < 2048 := idx2_lt1 i
  -- the source index with the same row-major position
  let k : S2x4096x2048.Idx :=
    ix3 (⟨(i 0).val / 4096, by omega⟩ : Fin 2) (⟨(i 0).val % 4096, by omega⟩ : Fin 4096) (⟨(i 1).val, b1⟩ : Fin 2048)
  have hk : (S2x4096x2048.rowMajor k).val = (S8192x2048.rowMajor i).val := by
    rw [Shape.rowMajor_val_three, Shape.rowMajor_val_two]
    show ((i 0).val / 4096 * 4096 + (i 0).val % 4096) * 2048 + (i 1).val = (i 0).val * 2048 + (i 1).val
    omega
  rw [shapeCast_apply x shapeCasts_S2x4096x2048_S8192x2048 i k hk]
  exact rd3_eq _ _ _ x k (p / 4096) (p % 4096) j
    (by show (i 0).val / 4096 = p / 4096; rw [h0]) (by show (i 0).val % 4096 = p % 4096; rw [h0]) h1

/-- The [512, 2048] matrix transposed (and narrowed): entry (j, g) is the original's (g, j). -/
theorem transpose_w1_apply (x : FVec Ideal S512x2048 .f32) (i : S2048x512.Idx) (j g : ℕ)
    (h0 : (i 0).val = j) (h1 : (i 1).val = g) :
    (truncf .bf16 (transpose S2048x512 [1, 0] x transposes_S512x2048_S2048x512_1_0) bitsLt_bf16_f32
        : FVec Ideal S2048x512 .bf16) i
      = rd2 (by decide) (by decide) x g j := by
  rw [truncf_apply]
  let k : S512x2048.Idx := ix2 (i 1) (i 0)
  rw [transpose_apply [1, 0] x transposes_S512x2048_S2048x512_1_0 i k
    (fun c => match c with | ⟨0, _⟩ => rfl | ⟨1, _⟩ => rfl)]
  exact rd2_eq _ _ x k g j h1 h0

/-- The [8192, 512] matrix given its leading axis of 2 back: entry (b, t, g) is row 4096·b + t, column g. -/
theorem unflatten_hid_apply (y : FVec Ideal S8192x512 .bf16) (i : S2x4096x512.Idx) (b t g : ℕ)
    (h0 : (i 0).val = b) (h1 : (i 1).val = t) (h2 : (i 2).val = g) :
    shapeCast S2x4096x512 y shapeCasts_S8192x512_S2x4096x512 i
      = rd2 (by decide) (by decide) y (4096 * b + t) g := by
  have b0 : (i 0).val < 2 := (i 0).isLt
  have b1 : (i 1).val < 4096 := (i 1).isLt
  have b2 : (i 2).val < 512 := (i 2).isLt
  let k : S8192x512.Idx := ix2 (⟨4096 * (i 0).val + (i 1).val, by omega⟩ : Fin 8192) (⟨(i 2).val, b2⟩ : Fin 512)
  have hk : (S8192x512.rowMajor k).val = (S2x4096x512.rowMajor i).val := by
    rw [Shape.rowMajor_val_two, Shape.rowMajor_val_three]
    show (4096 * (i 0).val + (i 1).val) * 512 + (i 2).val = ((i 0).val * 4096 + (i 1).val) * 512 + (i 2).val
    omega
  rw [shapeCast_apply y shapeCasts_S8192x512_S2x4096x512 i k hk]
  exact rd2_eq _ _ y k (4096 * b + t) g
    (by show 4096 * (i 0).val + (i 1).val = 4096 * b + t; rw [h0, h1]) h2

/-- The [16384, 512] matrix cut into [4096, 4, 512], its axes turned to [4, 512, 4096] (and narrowed):
    entry (w, g, d) is row 4·d + w, column g. -/
theorem regroup_w2_apply (x : FVec Ideal S16384x512 .f32) (i : S4x512x4096.Idx) (w g d : ℕ)
    (h0 : (i 0).val = w) (h1 : (i 1).val = g) (h2 : (i 2).val = d) :
    (truncf .bf16 (transpose S4x512x4096 [1, 2, 0] (shapeCast S4096x4x512 x shapeCasts_S16384x512_S4096x4x512)
        transposes_S4096x4x512_S4x512x4096_1_2_0) bitsLt_bf16_f32 : FVec Ideal S4x512x4096 .bf16) i
      = rd2 (by decide) (by decide) x (4 * d + w) g := by
  have b0 : (i 0).val < 4 := (i 0).isLt
  have b1 : (i 1).val < 512 := (i 1).isLt
  have b2 : (i 2).val < 4096 := (i 2).isLt
  rw [truncf_apply]
  -- the index (d, w, g) of the [4096, 4, 512] array
  let m : S4096x4x512.Idx := ix3 (i 2) (i 0) (i 1)
  rw [transpose_apply [1, 2, 0] (shapeCast S4096x4x512 x shapeCasts_S16384x512_S4096x4x512)
    transposes_S4096x4x512_S4x512x4096_1_2_0 i m
    (fun c => match c with | ⟨0, _⟩ => rfl | ⟨1, _⟩ => rfl | ⟨2, _⟩ => rfl)]
  let k : S16384x512.Idx := ix2 (⟨4 * (i 2).val + (i 0).val, by omega⟩ : Fin 16384) (⟨(i 1).val, b1⟩ : Fin 512)
  have hk : (S16384x512.rowMajor k).val = (S4096x4x512.rowMajor m).val := by
    rw [Shape.rowMajor_val_two, Shape.rowMajor_val_three]
    show (4 * (i 2).val + (i 0).val) * 512 + (i 1).val = ((i 2).val * 4 + (i 0).val) * 512 + (i 1).val
    omega
  rw [shapeCast_apply x shapeCasts_S16384x512_S4096x4x512 m k hk]
  exact rd2_eq _ _ x k (4 * d + w) g
    (by show 4 * (i 2).val + (i 0).val = 4 * d + w; rw [h2, h0]) h1

/-- The [16384] vector cut into [4096, 4] and transposed to [4, 4096]: entry (w, d) is position 4·d + w. -/
theorem regroup_b2_apply (x : FVec Ideal S16384 .f32) (i : S4x4096.Idx) (w d : ℕ)
    (h0 : (i 0).val = w) (h1 : (i 1).val = d) :
    transpose S4x4096 [1, 0] (shapeCast S4096x4 x shapeCasts_S16384_S4096x4) transposes_S4096x4_S4x4096_1_0 i
      = rd1 (by decide) x (4 * d + w) := by
  have b0 : (i 0).val < 4 := idx2_lt0 i
  have b1 : (i 1).val < 4096 := idx2_lt1 i
  -- the index (d, w) of the [4096, 4] array
  let m : S4096x4.Idx := ix2 (i 1) (i 0)
  rw [transpose_apply [1, 0] (shapeCast S4096x4 x shapeCasts_S16384_S4096x4) transposes_S4096x4_S4x4096_1_0 i m
    (fun c => match c with | ⟨0, _⟩ => rfl | ⟨1, _⟩ => rfl)]
  let k : S16384.Idx := ix1 (⟨4 * (i 1).val + (i 0).val, by omega⟩ : Fin 16384)
  have hk : (S16384.rowMajor k).val = (S4096x4.rowMajor m).val := by
    rw [Shape.rowMajor_val_one, Shape.rowMajor_val_two]
    show 4 * (i 1).val + (i 0).val = (i 1).val * 4 + (i 0).val
    omega
  rw [shapeCast_apply x shapeCasts_S16384_S4096x4 m k hk]
  exact rd1_eq _ x k (4 * d + w) (by show 4 * (i 1).val + (i 0).val = 4 * d + w; rw [h1, h0])

end Cert.KernelIdeal.HostStages

end
-- ==== Proof.Region0Array.lean ====
/-
  The array the first kernel region leaves: the hidden activations, flattened.

  The region runs over eight grid points.  Point t loads rows 1024·t … 1024·t + 1023 of the flattened generator input
  (an [8192, 2048] array) and the whole transposed weight (a [2048, 512] array), and writes rows 1024·t … 1024·t + 1023
  of an [8192, 512] array with  swish(Σ_j a(row, j) · wt(j, g)),  swish q = q · logistic q.  The eight row blocks tile
  the output, so after the region the output array is that function of the two input arrays at every index.  The
  arithmetic of one block (a product into zero followed by q · logistic q, entry by entry) is taken as a hypothesis;
  what is proved here is the passage from blocks to the array: each block read where the index map puts it, each
  written block as the block of one whole-array function, and the cover of the array by the blocks.
-/
import proofs.«130823_j51651276701956_2_alg».proof.Proof.Gen.KernelIdeal.Frame
import Idealize.ShloMosaic.Lib.Pipeline.Value
import proofs.«130823_j51651276701956_2_alg».proof.Proof.Spec

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.LibNatRead Cert.LibNatReadRanks
open Idealize.ShloMosaic.Pipeline (Dat)

/-- The flattened hidden activations: at (p, g), swish of the p-th row of a against the g-th column of wt. -/
def hidFlat (a : S8192x2048.Idx → EReal) (wt : S2048x512.Idx → EReal) : S8192x512.Idx → EReal :=
  fun i => Cert.Spec.swish (∑ j : Fin 2048, rd2 (by decide) (by decide) a (i 0).val j.val * rd2 (by decide) (by decide) wt j.val (i 1).val)

theorem zero_offsets : (![0, 0] : Fin 2 → Nat) = fun _ => 0 := funext fun a => by fin_cases a <;> rfl

/-- The index maps over the grid: the input rows move with the output rows, every other block index is zero, and
    the output's row-block index is at most seven. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block of the output is some point's. -/
theorem row_block_onto : ∀ q : Fin 8, ∃ t : Fin cfg0.N, win0_2.index t = ![q.val, 0] :=
  (by decide +kernel : ∀ q : Fin 8, ∃ t : Fin grid0.N, win0_2.index t = ![q.val, 0])

section
variable (V : (c : Dev nD) → (b : Ref sig .tc) → Buf (Elt Ideal) ((c : Thread nD τ).loc b))

/-- The generator-input block of point t at (r, j) is the array at row (row block of t)·1024 + r, column j. -/
theorem input_block_apply (c : Dev nD) (t : Fin cfg0.N) (r : Fin 1024) (j : Fin 2048) :
    iblk0 (F := Ideal) V c 0 t (ix2 r j)
      = rd2 (a := 8192) (b := 2048) (by decide) (by decide) (V c main_v0) (win0_2.index t (0 : Fin 2) * 1024 + r.val) j.val := by
  obtain ⟨e0, e1, -⟩ := index_maps t
  show V c main_v0 (((cfg0.win 0).blk t).view.emb (ix2 r j)) = _
  refine rd2_eq (a := 8192) (b := 2048) (by decide) (by decide) (V c main_v0) (((cfg0.win 0).blk t).view.emb (ix2 r j)) _ _ ?_ ?_
  · show win0_0.index t (0 : Fin 2) * 1024 + 1 * r.val = _; omega
  · show win0_0.index t (1 : Fin 2) * 2048 + 1 * j.val = _; omega

/-- The weight block of any point is the whole weight array. -/
theorem weight_block_apply (c : Dev nD) (t : Fin cfg0.N) (j : Fin 2048) (g : Fin 512) :
    iblk0 (F := Ideal) V c 1 t (ix2 j g)
      = rd2 (a := 2048) (b := 512) (by decide) (by decide) (V c main_v2) j.val g.val := by
  obtain ⟨-, -, e2, e3, -⟩ := index_maps t
  show V c main_v2 (((cfg0.win 1).blk t).view.emb (ix2 j g)) = _
  refine rd2_eq (a := 2048) (b := 512) (by decide) (by decide) (V c main_v2) (((cfg0.win 1).blk t).view.emb (ix2 j g)) _ _ ?_ ?_
  · show win0_1.index t (0 : Fin 2) * 2048 + 1 * j.val = _; omega
  · show win0_1.index t (1 : Fin 2) * 512 + 1 * g.val = _; omega

/-- What point t writes back is block t of the flattened hidden activations of the two arrays as the region finds them. -/
theorem flushed_eq (hpay : ∀ (v0 : Vec Ideal S1024x2048 .f32) (v3 : Vec Ideal S2048x512 .bf16) (r : Fin 1024) (g : Fin 512),
      Gen.k0_pay1 (F := Ideal) v0 v3 (ix2 r g) = Cert.Spec.swish (∑ j : Fin 2048, v0 (ix2 r j) * v3 (ix2 j g)))
    (c : Dev nD) (t : Fin cfg0.N) :
    (dat0 (F := Ideal) V c).flushed 2 t
      = ((cfg0.win 2).blk t).view.read (Elt Ideal) (hidFlat (V c main_v0) (V c main_v2)) := by
  show (cfg0.win 2).cut (grid0.coords t) ((dat0 (F := Ideal) V c).after 2 t) = _
  rw [after0_2]
  unfold out0_2
  rw [View.canon_unit_zero zero_offsets]
  simp only [View.ld_unit_zero (S := S1024x2048) zero_offsets, View.ld_unit_zero (S := S2048x512) zero_offsets]
  obtain ⟨-, -, -, -, e4, -⟩ := index_maps t
  funext y
  obtain ⟨r, g, rfl⟩ : ∃ (r : Fin 1024) (g : Fin 512), y = ix2 r g := ⟨y 0, y 1, eq_ix2 y⟩
  show k0_pay1 (F := Ideal) (iblk0 (F := Ideal) V c 0 t) (iblk0 (F := Ideal) V c 1 t) (ix2 r g)
    = hidFlat (V c main_v0) (V c main_v2) (((cfg0.win 2).blk t).view.emb (ix2 r g))
  refine (hpay (iblk0 (F := Ideal) V c 0 t) (iblk0 (F := Ideal) V c 1 t) r g).trans ?_
  have hi0 : ((((cfg0.win 2).blk t).view.emb (ix2 r g)) 0).val = win0_2.index t (0 : Fin 2) * 1024 + r.val := by
    show win0_2.index t (0 : Fin 2) * 1024 + 1 * r.val = _; omega
  have hi1 : ((((cfg0.win 2).blk t).view.emb (ix2 r g)) 1).val = g.val := by
    show win0_2.index t (1 : Fin 2) * 512 + 1 * g.val = _; omega
  show _ = Cert.Spec.swish (∑ j : Fin 2048,
      rd2 (α := EReal) (a := 8192) (b := 2048) (by decide) (by decide) (V c main_v0) ((((cfg0.win 2).blk t).view.emb (ix2 r g)) 0).val j.val
        * rd2 (α := EReal) (a := 2048) (b := 512) (by decide) (by decide) (V c main_v2) j.val ((((cfg0.win 2).blk t).view.emb (ix2 r g)) 1).val)
  rw [hi0, hi1]
  refine congrArg Cert.Spec.swish (Finset.sum_congr rfl fun j _ => ?_)
  rw [input_block_apply V c t r j, weight_block_apply V c t j g]

end

/-- An index of the output array is in point t's block iff each coordinate is in the block's range on its axis. -/
theorem mem_block (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v3).slice (win0_2.rect t)).set ↔ _
  rw [View.set_slice_whole, Rect.mem_set_unit]
  exact Iff.rfl

/-- Every index of the output array is in the block of the point that owns its row block: row p belongs to point p / 1024. -/
theorem covered (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ := row_block_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- After the region the output array holds the flattened hidden activations of the two input arrays. -/
theorem region0_array (V : (c : Dev nD) → (b : Ref sig .tc) → Buf (Elt Ideal) ((c : Thread nD τ).loc b))
    (hpay : ∀ (v0 : Vec Ideal S1024x2048 .f32) (v3 : Vec Ideal S2048x512 .bf16) (r : Fin 1024) (g : Fin 512),
      Gen.k0_pay1 (F := Ideal) v0 v3 (ix2 r g) = Cert.Spec.swish (∑ j : Fin 2048, v0 (ix2 r j) * v3 (ix2 j g)))
    (c : Dev nD) :
    (dat0 (F := Ideal) V c).arrAt 2 cfg0.N = hidFlat (V c main_v0) (V c main_v2) :=
  (dat0 (F := Ideal) V c).arrAt_eq_of_cover 2 (hidFlat (V c main_v0) (V c main_v2))
    (fun t _ => flushed_eq V hpay c t) covered

end Cert.KernelIdeal.Region0

end
-- ==== Proof.Bridge.lean ====
/-
  From the kernel's arrays to the specification.

  The second region finds: the hidden activations with their batch axis restored (a reshape of the first region's
  flattened output), the second weight and the bias regrouped by tap (row 4·d + w of the weight is slice w, column d),
  and the padded input.  The first region's flattened output at row 4096·b + t is the hidden activation of batch b at
  time t, because the flattened generator input at that row is the generator input of batch b at time t and the
  transposed first weight at (j, g) is the first weight at (g, j).  So the region's four-tap sum over its arrays is the
  specification's result, entry by entry; no law of arithmetic is used, only where each entry sits.
-/
import proofs.«130823_j51651276701956_2_alg».proof.Proof.HostStages
import proofs.«130823_j51651276701956_2_alg».proof.Proof.Region0Array
import proofs.«130823_j51651276701956_2_alg».proof.Proof.Region1Array
import proofs.«130823_j51651276701956_2_alg».proof.Proof.Spec

set_option maxRecDepth 16384

noncomputable section

namespace Cert.KernelIdeal.Bridge

open Cert.KernelIdeal Cert.KernelIdeal.Facts₀ Cert.KernelIdeal.HostStages Cert.KernelIdeal.Region0 Cert.KernelIdeal.Region1
open Idealize.ShloMosaic Idealize.ShloMosaic.ValueIdx
open Cert.LibNatRead Cert.LibNatReadRanks Cert.Spec

variable (gen : FVec Ideal S2x4096x2048 .f32) (w1 : FVec Ideal S512x2048 .f32) (w2 : FVec Ideal S16384x512 .f32)
  (b2 : FVec Ideal S16384 .f32) (xp : FVec Ideal S2x4099x4096 .f32)

/-- The flattened generator input. -/
abbrev genFlat : FVec Ideal S8192x2048 .f32 := shapeCast S8192x2048 gen shapeCasts_S2x4096x2048_S8192x2048
/-- The transposed first weight. -/
abbrev w1T : FVec Ideal S2048x512 .bf16 :=
  truncf .bf16 (transpose S2048x512 [1, 0] w1 transposes_S512x2048_S2048x512_1_0) bitsLt_bf16_f32
/-- The second weight regrouped by tap. -/
abbrev w2T : FVec Ideal S4x512x4096 .bf16 :=
  truncf .bf16 (transpose S4x512x4096 [1, 2, 0] (shapeCast S4096x4x512 w2 shapeCasts_S16384x512_S4096x4x512)
    transposes_S4096x4x512_S4x512x4096_1_2_0) bitsLt_bf16_f32
/-- The bias regrouped by tap. -/
abbrev b2T : FVec Ideal S4x4096 .f32 :=
  transpose S4x4096 [1, 0] (shapeCast S4096x4 b2 shapeCasts_S16384_S4096x4) transposes_S4096x4_S4x4096_1_0
/-- The hidden activations as the second region finds them. -/
abbrev hid3 : FVec Ideal S2x4096x512 .bf16 :=
  shapeCast S2x4096x512 (hidFlat (genFlat gen) (w1T w1)) shapeCasts_S8192x512_S2x4096x512

/-- The flattened generator input at row 4096·b + t is the generator input of batch b at time t. -/
theorem genFlat_read (b t j : ℕ) (hb : b < 2) (ht : t < 4096) (hj : j < 2048) :
    rd2 (by decide) (by decide) (genFlat gen) (4096 * b + t) j = genAt gen b t j := by
  unfold rd2 genAt
  refine (flatten_gen_apply gen _ ((4096 * b + t) % 8192) (j % 2048) rfl rfl).trans ?_
  have e1 : (4096 * b + t) % 8192 / 4096 = b := by omega
  have e2 : (4096 * b + t) % 8192 % 4096 = t := by omega
  have e3 : j % 2048 = j := Nat.mod_eq_of_lt hj
  rw [e1, e2, e3]

/-- The transposed first weight at (j, g) is the first weight at (g, j). -/
theorem w1T_read (j g : ℕ) (hj : j < 2048) (hg : g < 512) :
    rd2 (by decide) (by decide) (w1T w1) j g = w1At w1 g j := by
  unfold rd2 w1At
  refine (transpose_w1_apply w1 _ (j % 2048) (g % 512) rfl rfl).trans ?_
  rw [Nat.mod_eq_of_lt hj, Nat.mod_eq_of_lt hg]

/-- The hidden activations the second region finds are the specification's. -/
theorem hid3_read (b t g : ℕ) (hb : b < 2) (ht : t < 4096) (hg : g < 512) :
    rd3 (by decide) (by decide) (by decide) (hid3 gen w1) b t g = hid gen w1 b t g := by
  unfold rd3
  refine (unflatten_hid_apply (hidFlat (genFlat gen) (w1T w1)) _ (b % 2) (t % 4096) (g % 512) rfl rfl rfl).trans ?_
  rw [Nat.mod_eq_of_lt hb, Nat.mod_eq_of_lt ht, Nat.mod_eq_of_lt hg]
  unfold rd2 hidFlat hid
  refine congrArg swish (Finset.sum_congr rfl fun j _ => ?_)
  have e1 : (4096 * b + t) % 8192 = 4096 * b + t := by omega
  have e2 : g % 512 = g := Nat.mod_eq_of_lt hg
  show rd2 (by decide) (by decide) (genFlat gen) ((4096 * b + t) % 8192) j.val
      * rd2 (by decide) (by decide) (w1T w1) j.val (g % 512) = _
  rw [e1, e2, genFlat_read gen b t j.val hb ht j.isLt, w1T_read w1 j.val g j.isLt hg]

/-- The regrouped second weight at (w, g, d) is the second weight at row 4·d + w. -/
theorem w2T_read (w g d : ℕ) (hw : w < 4) (hg : g < 512) (hd : d < 4096) :
    rd3 (by decide) (by decide) (by decide) (w2T w2) w g d = w2At w2 (4 * d + w) g := by
  unfold rd3 w2At
  refine (regroup_w2_apply w2 _ (w % 4) (g % 512) (d % 4096) rfl rfl rfl).trans ?_
  rw [Nat.mod_eq_of_lt hw, Nat.mod_eq_of_lt hg, Nat.mod_eq_of_lt hd]

/-- The regrouped bias at (w, d) is the bias at 4·d + w. -/
theorem b2T_read (w d : ℕ) (hw : w < 4) (hd : d < 4096) :
    rd2 (by decide) (by decide) (b2T b2) w d = b2At b2 (4 * d + w) := by
  unfold rd2 b2At
  refine (regroup_b2_apply b2 _ (w % 4) (d % 4096) rfl rfl).trans ?_
  rw [Nat.mod_eq_of_lt hw, Nat.mod_eq_of_lt hd]

/-- One tap over the region's arrays is the specification's tap. -/
theorem arrTap_eq (b t d w : ℕ) (hb : b < 2) (ht : t < 4096) (hd : d < 4096) (hw : w < 4) :
    arrTap (hid3 gen w1) xp (w2T w2) (b2T b2) b t d w = tap gen w1 w2 b2 xp b t d w := by
  unfold arrTap tap kern xpAt
  rw [b2T_read b2 w d hw hd]
  refine congrArg₂ (· * ·) (congrArg₂ (· + ·) (Finset.sum_congr rfl fun g _ => ?_) rfl) rfl
  rw [hid3_read gen w1 b t g.val hb ht g.isLt, w2T_read w2 w g.val d hw g.isLt hd]

/-- The region's four-tap sum over its arrays is the specification's result. -/
theorem arrFn_eq_G : arrFn (hid3 gen w1) xp (w2T w2) (b2T b2) = G gen w1 w2 b2 xp := by
  funext i
  have h0 : (i 0).val < 2 := (i 0).isLt
  have h1 : (i 1).val < 4096 := (i 1).isLt
  have h2 : (i 2).val < 4096 := (i 2).isLt
  unfold arrFn G outAt
  rw [arrTap_eq gen w1 w2 b2 xp _ _ _ 0 h0 h1 h2 (by decide), arrTap_eq gen w1 w2 b2 xp _ _ _ 1 h0 h1 h2 (by decide),
    arrTap_eq gen w1 w2 b2 xp _ _ _ 2 h0 h1 h2 (by decide), arrTap_eq gen w1 w2 b2 xp _ _ _ 3 h0 h1 h2 (by decide)]

end Cert.KernelIdeal.Bridge

end
-- ==== Proof.KernelValue.lean ====
/-
  The idealized kernel's result, as the specification.

  The result buffer ends at what the second region's write-backs leave in its output array.  That array is the causal
  four-tap sum over the arrays the region finds at its entry: the hidden activations (the first region's output with its
  batch axis restored), the padded input, and the second weight and the bias regrouped by tap — each a reshape,
  transpose or padding of an argument, read off the fold through the program's segments.  The first region's output is
  x · logistic x of the generator input times the first weight.  Entry by entry this is the specification's result.
-/
import proofs.«130823_j51651276701956_2_alg».proof.Proof.KernelRun
import proofs.«130823_j51651276701956_2_alg».proof.Proof.FoldContents
import proofs.«130823_j51651276701956_2_alg».proof.Proof.Region1Block
import proofs.«130823_j51651276701956_2_alg».proof.Proof.Bridge

set_option maxRecDepth 16384

noncomputable section

namespace Cert.KernelIdeal.RunValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The padded input: three zero rows in front of the time axis. -/
abbrev padded (x : FVec Ideal S2x4096x4096 .f32) : FVec Ideal S2x4099x4096 .f32 :=
  pad S2x4099x4096 ![0, 3, 0] ![0, 0, 0] ![0, 0, 0] x (sitofp .f32 (constantI S_ 32 0#32))
    pads_S2x4096x4096_S2x4099x4096_000_300_000 h_S_

/-- The specification's result on a core's argument arrays. -/
abbrev specOf (c : Dev nD) : S2x4096x4096.Idx → EReal :=
  Cert.Spec.G (m ((c : Thread nD τ).loc main_arg1)) (m ((c : Thread nD τ).loc main_arg2))
    (m ((c : Thread nD τ).loc main_arg3)) (m ((c : Thread nD τ).loc main_arg4))
    (padded (m ((c : Thread nD τ).loc main_arg0)))

/-- What the second region leaves in its output array is the specification's result. -/
theorem result_eq (c : Dev nD) : (dat1 (F := Ideal) (V4 m ρ) c).arrAt 4 cfg1.N = specOf m c := by
  rw [Region1.region1_array (V4 m ρ) c (Region1.outsAt_eq (V4 m ρ) c),
    Fold.V4_main_v4 m ρ c, Fold.V4_main_v10 m ρ c, Fold.V4_main_v7 m ρ c, Fold.V4_main_v9 m ρ c,
    Region0.region0_array (V1 m ρ) Payloads.k0_pay1_apply c, Fold.V1_main_v0 m ρ c, Fold.V1_main_v2 m ρ c]
  exact Bridge.arrFn_eq_G (m ((c : Thread nD τ).loc main_arg1)) (m ((c : Thread nD τ).loc main_arg2))
    (m ((c : Thread nD τ).loc main_arg3)) (m ((c : Thread nD τ).loc main_arg4))
    (padded (m ((c : Thread nD τ).loc main_arg0)))

/-- The idealized kernel runs to its end and leaves the specification's result; the arguments end as launched. -/
theorem run : θ_run defs (onTc (τ := τ) (main (F := Ideal))) ⟨m, fun _ => 0, ρ⟩ (fun r => ∀ c : Dev nD,
      r.2.mem ((c.tc : Thread nD τ).loc main_v11) = specOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨((h c).1.trans (fold_result m ρ c)).trans (result_eq m ρ c), (h c).2⟩)
    (run_fold m ρ)

end Cert.KernelIdeal.RunValue

end
-- ==== Proof.lean ====
/-
  A per-token causal depthwise convolution with generated weights, followed by x · logistic x.

  Both programs compute, for a batch b, a time step t and a channel d,

      out(b, t, d) = swish ( Σ_{w < 4} kern(b, t, 4·d + w) · xp(b, t + w, d) ),      swish q = q · logistic q,

  where xp is the input padded with three zero rows in front of the time axis,
  kern(b, t, k) = Σ_g hid(b, t, g) · w2(k, g) + b2(k), and hid(b, t, g) = swish ( Σ_j gen(b, t, j) · w1(g, j) ).
  The kernel computes hid in a first region over row blocks of the flattened generator input, and the taps in a second
  region over (batch, channel tile) blocks, its body a loop over four blocks of 1024 time steps; it starts the tap sum
  from a zero accumulator and works with the weights regrouped by tap.  The reference computes all of kern at once,
  reshapes it to [b, t, d, w] and adds the four taps.  On the extended reals a change of number format is the identity,
  a matrix product into a zero accumulator is the plain sum of products, the kernel's logistic is 1 / (1 + exp(−x)) as
  the reference spells it, and 0 + a = a; beyond that the two sides differ only in where an entry is stored, so both
  are shown equal, entry by entry, to one specification (Proof/Spec.lean), with no appeal to finiteness of the inputs.

  The three frames: the kernel's two are the generated frame certificates; the reference's is its generated run with
  the result dropped.  The idealization rewrote no operation, so there is nothing to preserve.
-/
import proofs.«130823_j51651276701956_2_alg».proof.Defs
import proofs.«130823_j51651276701956_2_alg».proof.Proof.Gen.Kernel
import proofs.«130823_j51651276701956_2_alg».proof.Proof.Gen.Kernel.Skeleton
import proofs.«130823_j51651276701956_2_alg».proof.Proof.Gen.Kernel.Loops
import proofs.«130823_j51651276701956_2_alg».proof.Proof.Gen.Kernel.Launch
import proofs.«130823_j51651276701956_2_alg».proof.Proof.Gen.Kernel.Points
import proofs.«130823_j51651276701956_2_alg».proof.Proof.Gen.Kernel.Frame
import proofs.«130823_j51651276701956_2_alg».proof.Proof.Gen.KernelIdeal
import proofs.«130823_j51651276701956_2_alg».proof.Proof.Gen.KernelIdeal.Skeleton
import proofs.«130823_j51651276701956_2_alg».proof.Proof.Gen.KernelIdeal.Loops
import proofs.«130823_j51651276701956_2_alg».proof.Proof.Gen.KernelIdeal.Launch
import proofs.«130823_j51651276701956_2_alg».proof.Proof.Gen.KernelIdeal.Points
import proofs.«130823_j51651276701956_2_alg».proof.Proof.Gen.KernelIdeal.Frame
import proofs.«130823_j51651276701956_2_alg».proof.Proof.Gen.ReferenceIdeal
import proofs.«130823_j51651276701956_2_alg».proof.Proof.Gen.Pre_finite_inputs
import proofs.«130823_j51651276701956_2_alg».proof.Proof.Gen.ReferenceIdeal.Run
import proofs.«130823_j51651276701956_2_alg».proof.Proof.Gen.ReferenceIdeal.Read
import proofs.«130823_j51651276701956_2_alg».proof.Proof.RefIsSpec
import proofs.«130823_j51651276701956_2_alg».proof.Proof.KernelValue
import Idealize.ShloMosaic.Adequacy
import Idealize.ShloMosaic.Init

noncomputable section

namespace Cert.Proof

open Idealize.ShloMosaic Idealize.SL.Sem

/-- The kernel as printed runs to its end, nothing faulting, its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the idealized kernel and the idealized reference, from memories agreeing on the arguments,
    both end with the specification's result. -/
theorem algebraic : Cert.algebraic_KernelIdeal_ReferenceIdeal := by
  intro m ρ m' ρ' _ hagree
  refine ⟨fun c => Cert.KernelIdeal.RunValue.specOf m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.ref_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
